-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x17x128x128 : Shape := ⟨4, ![64, 17, 128, 128]⟩
abbrev S_ : Shape := ⟨0, ![]⟩

class Facts : Prop where
  bcast_S_S64x17x128x128 : S_.BroadcastsInDim S64x17x128x128 (![] : Fin 0 → Fin S64x17x128x128.rank)
  reducesTo_S64x17x128x128_S_d0_1_2_3 : S64x17x128x128.ReducesTo [0, 1, 2, 3] S_
  h_S_ : 0 < S_.numel

variable [Facts]

def fn {F : FTy → Type} [FloatOps F] (main_arg0 : FVec F S64x17x128x128 .f32) (main_arg1 : FVec F S64x17x128x128 .f32) : IVec S_ 1 :=
  let main_v0 : FVec F S64x17x128x128 .f32 := Host.absf main_arg0
  let main_cst : FVec F S_ .f32 := constant S_ .f32 0x7F800000#32
  let main_v1 : FVec F S64x17x128x128 .f32 := broadcastInDim S64x17x128x128 ![] bcast_S_S64x17x128x128 main_cst
  let main_v2 : IVec S64x17x128x128 1 := cmpf .olt main_v0 main_v1
  let main_c : IVec S_ 1 := constantI S_ 1 1#1
  let main_v3 : IVec S_ 1 := (fun x v => Host.reduce IntOp.andi x v reducesTo_S64x17x128x128_S_d0_1_2_3 h_S_) main_v2 main_c
  let main_v4 : FVec F S64x17x128x128 .f32 := Host.absf main_arg1
  let main_cst_0 : FVec F S_ .f32 := constant S_ .f32 0x7F800000#32
  let main_v5 : FVec F S64x17x128x128 .f32 := broadcastInDim S64x17x128x128 ![] bcast_S_S64x17x128x128 main_cst_0
  let main_v6 : IVec S64x17x128x128 1 := cmpf .olt main_v4 main_v5
  let main_c_1 : IVec S_ 1 := constantI S_ 1 1#1
  let main_v7 : IVec S_ 1 := (fun x v => Host.reduce IntOp.andi x v reducesTo_S64x17x128x128_S_d0_1_2_3 h_S_) main_v6 main_c_1
  let main_v8 : IVec S_ 1 := andi main_v3 main_v7
  main_v8
-- ==== Kernel.lean ====
abbrev S64x17x128x128 : Shape := ⟨4, ![64, 17, 128, 128]⟩
abbrev S2x1x1 : Shape := ⟨3, ![2, 1, 1]⟩
abbrev S8x17x128x128 : Shape := ⟨4, ![8, 17, 128, 128]⟩
abbrev S1x1x1 : Shape := ⟨3, ![1, 1, 1]⟩
abbrev S1x1 : Shape := ⟨2, ![1, 1]⟩
abbrev S1x17x128x128 : Shape := ⟨4, ![1, 17, 128, 128]⟩
abbrev S17x128x128 : Shape := ⟨3, ![17, 128, 128]⟩
abbrev S17x128 : Shape := ⟨2, ![17, 128]⟩
abbrev S17 : Shape := ⟨1, ![17]⟩
abbrev S17x1 : Shape := ⟨2, ![17, 1]⟩
abbrev S1x17x1 : Shape := ⟨3, ![1, 17, 1]⟩
abbrev S1x17x128 : Shape := ⟨3, ![1, 17, 128]⟩
abbrev S1x128 : Shape := ⟨2, ![1, 128]⟩
abbrev S1 : Shape := ⟨1, ![1]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S64x17x128x128, .f32⟩
  | .hbm, ⟨1, _⟩ => ⟨S64x17x128x128, .f32⟩
  | .hbm, ⟨2, _⟩ => ⟨S2x1x1, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x17x128x128, .f32⟩
  | .local _ .vmem, ⟨1, _⟩ => ⟨S8x17x128x128, .f32⟩
  | .local _ .vmem, ⟨2, _⟩ => ⟨S8x17x128x128, .f32⟩
  | .local _ .vmem, ⟨3, _⟩ => ⟨S8x17x128x128, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S64x17x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x17x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S8x17x128x128_S1x17x128x128_0_0_0_0 : ∀ a, (![0, 0, 0, 0] : Fin 4 → Nat) a + S1x17x128x128.size a ≤ S8x17x128x128.size a
  h_S1x17x128x128 : 0 < S1x17x128x128.numel
  shapeCasts_S1x17x128x128_S17x128x128 : S1x17x128x128.ShapeCasts S17x128x128
  reduces_S17x128x128_S17x128 : S17x128x128.Reduces [2] S17x128
  reduces_S17x128x128_S17x128_2 : S17x128x128.Reduces [1] S17x128
  reduces_S17x128_S17 : S17x128.Reduces [1] S17
  shapeCasts_S17_S17x1 : S17.ShapeCasts S17x1
  broadcasts_S17x1_S17x128 : S17x1.Broadcasts S17x128
  shapeCasts_S17x1_S1x17x1 : S17x1.ShapeCasts S1x17x1
  reduces_S1x17x1_S1x1 : S1x17x1.Reduces [1] S1x1
  shapeCasts_S17x128_S1x17x128 : S17x128.ShapeCasts S1x17x128
  reduces_S1x17x128_S1x128 : S1x17x128.Reduces [1] S1x128
  reduces_S1x128_S1 : S1x128.Reduces [1] S1
  shapeCasts_S1_S1x1 : S1.ShapeCasts S1x1
  inb_S8x17x128x128_S1x17x128x128_1_0_0_0 : ∀ a, (![1, 0, 0, 0] : Fin 4 → Nat) a + S1x17x128x128.size a ≤ S8x17x128x128.size a
  inb_S8x17x128x128_S1x17x128x128_2_0_0_0 : ∀ a, (![2, 0, 0, 0] : Fin 4 → Nat) a + S1x17x128x128.size a ≤ S8x17x128x128.size a
  inb_S8x17x128x128_S1x17x128x128_3_0_0_0 : ∀ a, (![3, 0, 0, 0] : Fin 4 → Nat) a + S1x17x128x128.size a ≤ S8x17x128x128.size a
  inb_S8x17x128x128_S1x17x128x128_4_0_0_0 : ∀ a, (![4, 0, 0, 0] : Fin 4 → Nat) a + S1x17x128x128.size a ≤ S8x17x128x128.size a
  inb_S8x17x128x128_S1x17x128x128_5_0_0_0 : ∀ a, (![5, 0, 0, 0] : Fin 4 → Nat) a + S1x17x128x128.size a ≤ S8x17x128x128.size a
  inb_S8x17x128x128_S1x17x128x128_6_0_0_0 : ∀ a, (![6, 0, 0, 0] : Fin 4 → Nat) a + S1x17x128x128.size a ≤ S8x17x128x128.size a
  inb_S8x17x128x128_S1x17x128x128_7_0_0_0 : ∀ a, (![7, 0, 0, 0] : Fin 4 → Nat) a + S1x17x128x128.size a ≤ S8x17x128x128.size a
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x17x128x128.size a ≤ S64x17x128x128.size a
  hwx0_0 : ∀ i : grid0.Coords, EltTy.bits .f32 = 32 ∨ (Rect.block (s := S64x17x128x128) S8x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x17x128x128.size a ≤ S64x17x128x128.size a
  hwx0_1 : ∀ i : grid0.Coords, EltTy.bits .f32 = 32 ∨ (Rect.block (s := S64x17x128x128) S8x17x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S8x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x17x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x17x128x128 : Shape := ⟨4, ![64, 17, 128, 128]⟩
abbrev S_ : Shape := ⟨0, ![]⟩
abbrev S64x17x128 : Shape := ⟨3, ![64, 17, 128]⟩
abbrev S64x17 : Shape := ⟨2, ![64, 17]⟩
abbrev S64x17x1 : Shape := ⟨3, ![64, 17, 1]⟩
abbrev S64x17x17 : Shape := ⟨3, ![64, 17, 17]⟩
abbrev S17x17 : Shape := ⟨2, ![17, 17]⟩

abbrev nBuf : Space → Nat
  | .hbm => 152
  | .vmem => 0
  | .smem => 0
  | _ => 0

abbrev hbmTy0_0 (i : Nat) : BufTy := match i % 128 with
  | 0 => ⟨S64x17x128x128, .f32⟩
  | 1 => ⟨S64x17x128x128, .f32⟩
  | 2 => ⟨S_, .f32⟩
  | 3 => ⟨S64x17x128, .f32⟩
  | 4 => ⟨S_, .f32⟩
  | 5 => ⟨S64x17x128, .f32⟩
  | 6 => ⟨S64x17x128, .f32⟩
  | 7 => ⟨S_, .f32⟩
  | 8 => ⟨S64x17x128, .f32⟩
  | 9 => ⟨S_, .f32⟩
  | 10 => ⟨S64x17x128, .f32⟩
  | 11 => ⟨S64x17x128, .f32⟩
  | 12 => ⟨S_, .f32⟩
  | 13 => ⟨S64x17x128, .f32⟩
  | 14 => ⟨S_, .f32⟩
  | 15 => ⟨S64x17x128, .f32⟩
  | 16 => ⟨S64x17x128, .f32⟩
  | 17 => ⟨S_, .f32⟩
  | 18 => ⟨S64x17x128, .f32⟩
  | 19 => ⟨S_, .f32⟩
  | 20 => ⟨S64x17x128, .f32⟩
  | 21 => ⟨S64x17x128, .f32⟩
  | 22 => ⟨S_, .f32⟩
  | 23 => ⟨S64x17, .f32⟩
  | 24 => ⟨S_, .f32⟩
  | 25 => ⟨S64x17, .f32⟩
  | 26 => ⟨S64x17, .f32⟩
  | 27 => ⟨S64x17x1, .f32⟩
  | 28 => ⟨S64x17x128, .f32⟩
  | 29 => ⟨S64x17x128, .f32⟩
  | 30 => ⟨S64x17x128, .f32⟩
  | 31 => ⟨S_, .f32⟩
  | 32 => ⟨S64x17, .f32⟩
  | 33 => ⟨S64x17x1, .f32⟩
  | 34 => ⟨S64x17x128, .f32⟩
  | 35 => ⟨S64x17x128, .f32⟩
  | 36 => ⟨S_, .f32⟩
  | 37 => ⟨S64x17, .f32⟩
  | 38 => ⟨S_, .f32⟩
  | 39 => ⟨S64x17, .f32⟩
  | 40 => ⟨S64x17, .f32⟩
  | 41 => ⟨S64x17x1, .f32⟩
  | 42 => ⟨S64x17x128, .f32⟩
  | 43 => ⟨S64x17x128, .f32⟩
  | 44 => ⟨S64x17x128, .f32⟩
  | 45 => ⟨S_, .f32⟩
  | 46 => ⟨S64x17, .f32⟩
  | 47 => ⟨S64x17x1, .f32⟩
  | 48 => ⟨S64x17x128, .f32⟩
  | 49 => ⟨S64x17x128, .f32⟩
  | 50 => ⟨S_, .f32⟩
  | 51 => ⟨S64x17, .f32⟩
  | 52 => ⟨S_, .f32⟩
  | 53 => ⟨S64x17, .f32⟩
  | 54 => ⟨S64x17, .f32⟩
  | 55 => ⟨S64x17x1, .f32⟩
  | 56 => ⟨S64x17x128, .f32⟩
  | 57 => ⟨S64x17x128, .f32⟩
  | 58 => ⟨S64x17x128, .f32⟩
  | 59 => ⟨S_, .f32⟩
  | 60 => ⟨S64x17, .f32⟩
  | 61 => ⟨S64x17x1, .f32⟩
  | 62 => ⟨S64x17x128, .f32⟩
  | 63 => ⟨S64x17x128, .f32⟩
  | 64 => ⟨S_, .f32⟩
  | 65 => ⟨S64x17, .f32⟩
  | 66 => ⟨S_, .f32⟩
  | 67 => ⟨S64x17, .f32⟩
  | 68 => ⟨S64x17, .f32⟩
  | 69 => ⟨S64x17x1, .f32⟩
  | 70 => ⟨S64x17x128, .f32⟩
  | 71 => ⟨S64x17x128, .f32⟩
  | 72 => ⟨S64x17x128, .f32⟩
  | 73 => ⟨S_, .f32⟩
  | 74 => ⟨S64x17, .f32⟩
  | 75 => ⟨S64x17x1, .f32⟩
  | 76 => ⟨S64x17x128, .f32⟩
  | 77 => ⟨S64x17x128, .f32⟩
  | 78 => ⟨S64x17x128, .f32⟩
  | 79 => ⟨S_, .f32⟩
  | 80 => ⟨S64x17, .f32⟩
  | 81 => ⟨S64x17x1, .f32⟩
  | 82 => ⟨S64x17x1, .f32⟩
  | 83 => ⟨S_, .f32⟩
  | 84 => ⟨S64x17x1, .f32⟩
  | 85 => ⟨S64x17x1, .f32⟩
  | 86 => ⟨S64x17x128, .f32⟩
  | 87 => ⟨S64x17x128, .f32⟩
  | 88 => ⟨S64x17x128, .f32⟩
  | 89 => ⟨S_, .f32⟩
  | 90 => ⟨S64x17, .f32⟩
  | 91 => ⟨S64x17x1, .f32⟩
  | 92 => ⟨S64x17x1, .f32⟩
  | 93 => ⟨S_, .f32⟩
  | 94 => ⟨S64x17x1, .f32⟩
  | 95 => ⟨S64x17x1, .f32⟩
  | 96 => ⟨S64x17x128, .f32⟩
  | 97 => ⟨S64x17x128, .f32⟩
  | 98 => ⟨S64x17x128, .f32⟩
  | 99 => ⟨S_, .f32⟩
  | 100 => ⟨S64x17, .f32⟩
  | 101 => ⟨S64x17x1, .f32⟩
  | 102 => ⟨S64x17x1, .f32⟩
  | 103 => ⟨S_, .f32⟩
  | 104 => ⟨S64x17x1, .f32⟩
  | 105 => ⟨S64x17x1, .f32⟩
  | 106 => ⟨S64x17x128, .f32⟩
  | 107 => ⟨S64x17x128, .f32⟩
  | 108 => ⟨S64x17x128, .f32⟩
  | 109 => ⟨S_, .f32⟩
  | 110 => ⟨S64x17, .f32⟩
  | 111 => ⟨S64x17x1, .f32⟩
  | 112 => ⟨S64x17x1, .f32⟩
  | 113 => ⟨S_, .f32⟩
  | 114 => ⟨S64x17x1, .f32⟩
  | 115 => ⟨S64x17x1, .f32⟩
  | 116 => ⟨S64x17x128, .f32⟩
  | 117 => ⟨S64x17x128, .f32⟩
  | 118 => ⟨S64x17x128, .f32⟩
  | 119 => ⟨S_, .f32⟩
  | 120 => ⟨S64x17, .f32⟩
  | 121 => ⟨S64x17x128, .f32⟩
  | 122 => ⟨S_, .f32⟩
  | 123 => ⟨S64x17, .f32⟩
  | 124 => ⟨S64x17, .f32⟩
  | 125 => ⟨S_, .f32⟩
  | 126 => ⟨S64x17, .f32⟩
  | 127 => ⟨S64x17, .f32⟩
  | _ => ⟨S64x17x128x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S64x17x17, .f32⟩
  | 5 => ⟨S64x17x17, .f32⟩
  | 6 => ⟨S64x17x17, .f32⟩
  | 7 => ⟨S_, .f32⟩
  | 8 => ⟨S64x17x17, .f32⟩
  | 9 => ⟨S64x17x17, .f32⟩
  | 10 => ⟨S_, .f32⟩
  | 11 => ⟨S17x17, .f32⟩
  | 12 => ⟨S_, .f32⟩
  | 13 => ⟨S17x17, .f32⟩
  | 14 => ⟨S17x17, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S64x17x128x128, .f32⟩

abbrev hbmTy (i : Nat) : BufTy := match i / 128 with
  | 0 => hbmTy0_0 i
  | 1 => hbmTy0_1 i
  | _ => ⟨S64x17x128x128, .f32⟩

abbrev bufTy : (tb : Table) → Fin (tcTables nBuf tb) → BufTy
  | .hbm, ⟨i, _⟩ => hbmTy i
  | _, _ => ⟨S64x17x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_v9 : Ref sig .tc := ⟨.hbm, 18, rfl⟩
abbrev main_cst_6 : Ref sig .tc := ⟨.hbm, 19, rfl⟩
abbrev main_v10 : Ref sig .tc := ⟨.hbm, 20, rfl⟩
abbrev main_v11 : Ref sig .tc := ⟨.hbm, 21, rfl⟩
abbrev main_cst_7 : Ref sig .tc := ⟨.hbm, 22, rfl⟩
abbrev main_v12 : Ref sig .tc := ⟨.hbm, 23, rfl⟩
abbrev main_cst_8 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_10 : Ref sig .tc := ⟨.hbm, 36, rfl⟩
abbrev main_v23 : Ref sig .tc := ⟨.hbm, 37, rfl⟩
abbrev main_cst_11 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_12 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_13 : Ref sig .tc := ⟨.hbm, 50, rfl⟩
abbrev main_v34 : Ref sig .tc := ⟨.hbm, 51, rfl⟩
abbrev main_cst_14 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_16 : Ref sig .tc := ⟨.hbm, 64, rfl⟩
abbrev main_v45 : Ref sig .tc := ⟨.hbm, 65, rfl⟩
abbrev main_cst_17 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_18 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_21 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_22 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_23 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_24 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_25 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_26 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_27 : Ref sig .tc := ⟨.hbm, 119, rfl⟩
abbrev main_v89 : Ref sig .tc := ⟨.hbm, 120, rfl⟩
abbrev main_v90 : Ref sig .tc := ⟨.hbm, 121, rfl⟩
abbrev main_cst_28 : Ref sig .tc := ⟨.hbm, 122, rfl⟩
abbrev main_v91 : Ref sig .tc := ⟨.hbm, 123, rfl⟩
abbrev main_v92 : Ref sig .tc := ⟨.hbm, 124, rfl⟩
abbrev main_cst_29 : Ref sig .tc := ⟨.hbm, 125, rfl⟩
abbrev main_v93 : Ref sig .tc := ⟨.hbm, 126, rfl⟩
abbrev main_v94 : Ref sig .tc := ⟨.hbm, 127, rfl⟩
abbrev main_cst_30 : Ref sig .tc := ⟨.hbm, 128, rfl⟩
abbrev main_v95 : Ref sig .tc := ⟨.hbm, 129, rfl⟩
abbrev main_cst_31 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_32 : Ref sig .tc := ⟨.hbm, 135, rfl⟩
abbrev main_v100 : Ref sig .tc := ⟨.hbm, 136, rfl⟩
abbrev main_v101 : Ref sig .tc := ⟨.hbm, 137, rfl⟩
abbrev main_cst_33 : Ref sig .tc := ⟨.hbm, 138, rfl⟩
abbrev main_v102 : Ref sig .tc := ⟨.hbm, 139, rfl⟩
abbrev main_cst_34 : Ref sig .tc := ⟨.hbm, 140, rfl⟩
abbrev main_v103 : Ref sig .tc := ⟨.hbm, 141, rfl⟩
abbrev main_v104 : Ref sig .tc := ⟨.hbm, 142, rfl⟩
abbrev main_cst_35 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_36 : Ref sig .tc := ⟨.hbm, 148, rfl⟩
abbrev main_v109 : Ref sig .tc := ⟨.hbm, 149, rfl⟩
abbrev main_cst_37 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  reducesTo_S64x17x128x128_S64x17x128_d3 : S64x17x128x128.ReducesTo [3] S64x17x128
  h_S_ : 0 < S_.numel
  bcast_S_S64x17x128 : S_.BroadcastsInDim S64x17x128 (![] : Fin 0 → Fin S64x17x128.rank)
  reducesTo_S64x17x128x128_S64x17x128_d2 : S64x17x128x128.ReducesTo [2] S64x17x128
  reducesTo_S64x17x128_S64x17_d2 : S64x17x128.ReducesTo [2] S64x17
  bcast_S_S64x17 : S_.BroadcastsInDim S64x17 (![] : Fin 0 → Fin S64x17.rank)
  bcast_S64x17_S64x17x1_0_1 : S64x17.BroadcastsInDim S64x17x1 (![0, 1] : Fin 2 → Fin S64x17x1.rank)
  bcast_S64x17x1_S64x17x128_0_1_2 : S64x17x1.BroadcastsInDim S64x17x128 (![0, 1, 2] : Fin 3 → Fin S64x17x128.rank)
  bcast_S_S64x17x1 : S_.BroadcastsInDim S64x17x1 (![] : Fin 0 → Fin S64x17x1.rank)
  reducesTo_S64x17_S_d0_1 : S64x17.ReducesTo [0, 1] S_
  bcast_S_S64x17x17 : S_.BroadcastsInDim S64x17x17 (![] : Fin 0 → Fin S64x17x17.rank)
  reducesTo_S64x17x17_S17x17_d0 : S64x17x17.ReducesTo [0] S17x17
  bcast_S_S17x17 : S_.BroadcastsInDim S17x17 (![] : Fin 0 → Fin S17x17.rank)
  reducesTo_S17x17_S_d0_1 : S17x17.ReducesTo [0, 1] S_
  dot_S64x17x128_S64x17x128_S64x17x17_2_2_1_1_0_0_wf : DotDims.WF S64x17x128 S64x17x128 S64x17x17 [2] [2] [1] [1] [0] [0]

variable [Facts₀]

def dot_S64x17x128_S64x17x128_S64x17x17_2_2_1_1_0_0 : DotDims S64x17x128 S64x17x128 S64x17x17 where
  lhsContracting := [2]
  rhsContracting := [2]
  lhsNonContracting := [1]
  rhsNonContracting := [1]
  lhsBatch := [0]
  rhsBatch := [0]
  wf := dot_S64x17x128_S64x17x128_S64x17x17_2_2_1_1_0_0_wf

class Facts : Prop extends Facts₀ where

variable [Facts]
-- ==== Proof.KSampleDefs.lean ====
/-
  One sample's arithmetic in the kernel body, as vector operations at any float instance: the two marginal
  means of a [17,128,128] sample, the shifted softmax of each row, the row divided by its clamped norm, and from
  the four normalised marginals the matched-channel term and the all-pairs term of the sample.
-/
import proofs.«102934_j90649579749529_2_alg».proof.Proof.Gen.KernelIdeal

noncomputable section

namespace Cert.KernelIdeal.Body

open Idealize.ShloMosaic Cert.KernelIdeal Cert.KernelIdeal.Facts₀

variable {F : FTy → Type} [FloatOps F]

/-- Mean over the last axis. -/
def meanL (a : FVec F S17x128x128 .f32) : FVec F S17x128 .f32 :=
  divf (multiReduction .add [2] S17x128 a 0x00000000#32 reduces_S17x128x128_S17x128 (.inl rfl) rfl)
    (broadcast S17x128 (Scalar.ofBits .f32 0x43000000#32))

/-- Mean over the middle axis. -/
def meanM (a : FVec F S17x128x128 .f32) : FVec F S17x128 .f32 :=
  divf (multiReduction .add [1] S17x128 a 0x00000000#32 reduces_S17x128x128_S17x128_2 (.inl rfl) rfl)
    (broadcast S17x128 (Scalar.ofBits .f32 0x43000000#32))

/-- exp (u - rowmax u), row by row. -/
def expShift (u : FVec F S17x128 .f32) : FVec F S17x128 .f32 :=
  exp (subf u (broadcastTo S17x128 (shapeCast S17x1
    (multiReduction .maximumf [1] S17 u 0xFF800000#32 reduces_S17x128_S17 (.inl rfl) rfl) shapeCasts_S17_S17x1)
    broadcasts_S17x1_S17x128))

/-- A [17,128] array divided by its row sums. -/
def divRowSum (e : FVec F S17x128 .f32) : FVec F S17x128 .f32 :=
  divf e (broadcastTo S17x128 (shapeCast S17x1
    (multiReduction .add [1] S17 e 0x00000000#32 reduces_S17x128_S17 (.inl rfl) rfl) shapeCasts_S17_S17x1)
    broadcasts_S17x1_S17x128)

/-- The shifted softmax of every row. -/
def softmaxV (u : FVec F S17x128 .f32) : FVec F S17x128 .f32 := divRowSum (expShift u)

/-- Every row divided by its Euclidean norm clamped below by eps. -/
def l2nV (p : FVec F S17x128 .f32) : FVec F S17x128 .f32 :=
  divf p (broadcastTo S17x128 (maximumf (sqrt (shapeCast S17x1
    (multiReduction .add [1] S17 (mulf p p) 0x00000000#32 reduces_S17x128_S17 (.inl rfl) rfl) shapeCasts_S17_S17x1))
    (broadcast S17x1 (Scalar.ofBits .f32 0x322BCC77#32))) broadcasts_S17x1_S17x128)

/-- Row-wise inner products of two [17,128] arrays, as a column. -/
def rowDot (A B : FVec F S17x128 .f32) : FVec F S17x1 .f32 :=
  shapeCast S17x1 (multiReduction .add [1] S17 (mulf A B) 0x00000000#32 reduces_S17x128_S17 (.inl rfl) rfl)
    shapeCasts_S17_S17x1

/-- The matched-channel term. -/
def posV (A B C D : FVec F S17x128 .f32) : FVec F S1x1 .f32 :=
  multiReduction .add [1] S1x1 (shapeCast S1x17x1
    (mulf (addf (rowDot A B) (rowDot C D)) (broadcast S17x1 (Scalar.ofBits .f32 0x3F000000#32)))
    shapeCasts_S17x1_S1x17x1) 0x00000000#32 reduces_S1x17x1_S1x1 (.inl rfl) rfl

/-- The sum of the 17 rows, as a [1,128] row. -/
def colSum (A : FVec F S17x128 .f32) : FVec F S1x128 .f32 :=
  multiReduction .add [1] S1x128 (shapeCast S1x17x128 A shapeCasts_S17x128_S1x17x128) 0x00000000#32
    reduces_S1x17x128_S1x128 (.inl rfl) rfl

/-- The inner product of two [1,128] rows, as a [1,1] array. -/
def laneDot (u v : FVec F S1x128 .f32) : FVec F S1x1 .f32 :=
  shapeCast S1x1 (multiReduction .add [1] S1 (mulf u v) 0x00000000#32 reduces_S1x128_S1 (.inl rfl) rfl)
    shapeCasts_S1_S1x1

/-- The all-pairs term. -/
def simV (A B C D : FVec F S17x128 .f32) : FVec F S1x1 .f32 :=
  mulf (addf (laneDot (colSum A) (colSum B)) (laneDot (colSum C) (colSum D)))
    (broadcast S1x1 (Scalar.ofBits .f32 0x3F000000#32))

/-- Normalised row marginal and normalised column marginal of a sample. -/
def nRowV (a : FVec F S17x128x128 .f32) : FVec F S17x128 .f32 := l2nV (softmaxV (meanL a))
def nColV (a : FVec F S17x128x128 .f32) : FVec F S17x128 .f32 := l2nV (softmaxV (meanM a))

/-- The two terms of one sample pair. -/
def samplePos (a b : FVec F S17x128x128 .f32) : FVec F S1x1 .f32 := posV (nRowV a) (nRowV b) (nColV a) (nColV b)
def sampleSim (a b : FVec F S17x128x128 .f32) : FVec F S1x1 .f32 := simV (nRowV a) (nRowV b) (nColV a) (nColV b)

end Cert.KernelIdeal.Body

end
-- ==== Proof.KBlockDefs.lean ====
/-
  A block of eight samples in the kernel body: the eight samples of a staged [8,17,128,128] block, and the two
  running sums the body forms over them, each started from zero and added in order.
-/
import proofs.«102934_j90649579749529_2_alg».proof.Proof.KSampleDefs
import Idealize.ShloMosaic.Lib.Pipeline.Value

noncomputable section

namespace Cert.KernelIdeal.Body

open Idealize.ShloMosaic Cert.KernelIdeal Cert.KernelIdeal.Facts₀

variable {F : FTy → Type} [FloatOps F]

/-- Sample 0 of a block of eight. -/
def sl0 (x : Vec F S8x17x128x128 .f32) : FVec F S17x128x128 .f32 :=
  shapeCast S17x128x128 (View.ld x (Rect.unit (s := S8x17x128x128) ![0, 0, 0, 0] S1x17x128x128.size inb_S8x17x128x128_S1x17x128x128_0_0_0_0)) shapeCasts_S1x17x128x128_S17x128x128
/-- Sample 1 of a block of eight. -/
def sl1 (x : Vec F S8x17x128x128 .f32) : FVec F S17x128x128 .f32 :=
  shapeCast S17x128x128 (View.ld x (Rect.unit (s := S8x17x128x128) ![1, 0, 0, 0] S1x17x128x128.size inb_S8x17x128x128_S1x17x128x128_1_0_0_0)) shapeCasts_S1x17x128x128_S17x128x128
/-- Sample 2 of a block of eight. -/
def sl2 (x : Vec F S8x17x128x128 .f32) : FVec F S17x128x128 .f32 :=
  shapeCast S17x128x128 (View.ld x (Rect.unit (s := S8x17x128x128) ![2, 0, 0, 0] S1x17x128x128.size inb_S8x17x128x128_S1x17x128x128_2_0_0_0)) shapeCasts_S1x17x128x128_S17x128x128
/-- Sample 3 of a block of eight. -/
def sl3 (x : Vec F S8x17x128x128 .f32) : FVec F S17x128x128 .f32 :=
  shapeCast S17x128x128 (View.ld x (Rect.unit (s := S8x17x128x128) ![3, 0, 0, 0] S1x17x128x128.size inb_S8x17x128x128_S1x17x128x128_3_0_0_0)) shapeCasts_S1x17x128x128_S17x128x128
/-- Sample 4 of a block of eight. -/
def sl4 (x : Vec F S8x17x128x128 .f32) : FVec F S17x128x128 .f32 :=
  shapeCast S17x128x128 (View.ld x (Rect.unit (s := S8x17x128x128) ![4, 0, 0, 0] S1x17x128x128.size inb_S8x17x128x128_S1x17x128x128_4_0_0_0)) shapeCasts_S1x17x128x128_S17x128x128
/-- Sample 5 of a block of eight. -/
def sl5 (x : Vec F S8x17x128x128 .f32) : FVec F S17x128x128 .f32 :=
  shapeCast S17x128x128 (View.ld x (Rect.unit (s := S8x17x128x128) ![5, 0, 0, 0] S1x17x128x128.size inb_S8x17x128x128_S1x17x128x128_5_0_0_0)) shapeCasts_S1x17x128x128_S17x128x128
/-- Sample 6 of a block of eight. -/
def sl6 (x : Vec F S8x17x128x128 .f32) : FVec F S17x128x128 .f32 :=
  shapeCast S17x128x128 (View.ld x (Rect.unit (s := S8x17x128x128) ![6, 0, 0, 0] S1x17x128x128.size inb_S8x17x128x128_S1x17x128x128_6_0_0_0)) shapeCasts_S1x17x128x128_S17x128x128
/-- Sample 7 of a block of eight. -/
def sl7 (x : Vec F S8x17x128x128 .f32) : FVec F S17x128x128 .f32 :=
  shapeCast S17x128x128 (View.ld x (Rect.unit (s := S8x17x128x128) ![7, 0, 0, 0] S1x17x128x128.size inb_S8x17x128x128_S1x17x128x128_7_0_0_0)) shapeCasts_S1x17x128x128_S17x128x128

/-- The [1,1] zero the block's two running sums start from. -/
def zero11 : FVec F S1x1 .f32 := broadcast S1x1 (Scalar.ofBits .f32 0x00000000#32)

/-- The matched-channel terms of a block's eight samples, added in order from zero. -/
def blockPos (x0 x1 : Vec F S8x17x128x128 .f32) : FVec F S1x1 .f32 :=
  addf (addf (addf (addf (addf (addf (addf (addf (zero11) (samplePos (sl0 x0) (sl0 x1))) (samplePos (sl1 x0) (sl1 x1))) (samplePos (sl2 x0) (sl2 x1))) (samplePos (sl3 x0) (sl3 x1))) (samplePos (sl4 x0) (sl4 x1))) (samplePos (sl5 x0) (sl5 x1))) (samplePos (sl6 x0) (sl6 x1))) (samplePos (sl7 x0) (sl7 x1))

/-- The all-pairs terms of a block's eight samples, added in order from zero. -/
def blockSim (x0 x1 : Vec F S8x17x128x128 .f32) : FVec F S1x1 .f32 :=
  addf (addf (addf (addf (addf (addf (addf (addf (zero11) (sampleSim (sl0 x0) (sl0 x1))) (sampleSim (sl1 x0) (sl1 x1))) (sampleSim (sl2 x0) (sl2 x1))) (sampleSim (sl3 x0) (sl3 x1))) (sampleSim (sl4 x0) (sl4 x1))) (sampleSim (sl5 x0) (sl5 x1))) (sampleSim (sl6 x0) (sl6 x1))) (sampleSim (sl7 x0) (sl7 x1))

end Cert.KernelIdeal.Body

end
-- ==== Proof.KBody.lean ====
/-
  What the kernel body leaves in its two one-element output blocks, read off the stores its run found.
  At a core's first grid point the body zeroes both blocks, reads them back, and adds the block's two sums; at the
  other points it adds them to what the blocks held. The eight unrolled copies of the sample arithmetic are, term for
  term, the sample functions applied to the eight samples of the staged input blocks, so each identity closes by
  unfolding.
-/
import proofs.«102934_j90649579749529_2_alg».proof.Proof.Gen.KernelIdeal.Frame
import proofs.«102934_j90649579749529_2_alg».proof.Proof.KBlockDefs
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyRun

open Cert.KernelIdeal Cert.KernelIdeal.Gen Cert.KernelIdeal.Body

variable {F : FTy → Type} [FloatOps F]

theorem hz3 : (![0, 0, 0] : Fin 3 → Nat) = fun _ => 0 := funext fun a => by fin_cases a <;> rfl

/-- What a point leaves in an output's one-element staging block: what the block held plus the [1,1] sum of the
    point's eight samples (both re-laid to [1,1,1]). -/
def stepB (xo : Vec F S1x1x1 .f32) (b : FVec F S1x1 .f32) : Vec F S1x1x1 .f32 :=
  addf (shapeCast S1x1x1 xo shapeCasts_S1x1x1_S1x1x1) (shapeCast S1x1x1 b shapeCasts_S1x1_S1x1x1)

/-- The zero block a core's first point stores before it accumulates. -/
def zero111 : Vec F S1x1x1 .f32 := broadcast S1x1x1 (Scalar.ofBits .f32 0x00000000#32)

/-- A core's first point: the block is reset, then the point's sum is added. -/
def stepA (b : FVec F S1x1 .f32) : Vec F S1x1x1 .f32 := stepB zero111 b

/-- A later point of a core, first output: the block's old contents plus the matched-channel sum of the point. -/
theorem out_B_2 (c : Dev nD) (i : grid0.Coords) (a2 : Memref sig .tc .vmem S8x17x128x128 .f32) (h2 : a2.IsWhole)
    (a3 : Memref sig .tc .vmem S8x17x128x128 .f32) (h3 : a3.IsWhole) (a4 : Memref sig .tc .vmem S1x1x1 .f32) (h4 : a4.IsWhole)
    (a5 : Memref sig .tc .vmem S1x1x1 .f32) (h5 : a5.IsWhole) (hc : ¬cond0_0 i)
    (x0 x1 : Vec F S8x17x128x128 .f32) (xo2 xo3 : Vec F S1x1x1 .f32) :
    out0_B_2 c i a2 h2 a3 h3 a4 h4 a5 h5 hc x0 x1 xo2 xo3 = stepB xo2 (blockPos x0 x1) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S1x1x1) hz3]
  rfl

/-- A later point of a core, second output: the block's old contents plus the all-pairs sum of the point. -/
theorem out_B_3 (c : Dev nD) (i : grid0.Coords) (a2 : Memref sig .tc .vmem S8x17x128x128 .f32) (h2 : a2.IsWhole)
    (a3 : Memref sig .tc .vmem S8x17x128x128 .f32) (h3 : a3.IsWhole) (a4 : Memref sig .tc .vmem S1x1x1 .f32) (h4 : a4.IsWhole)
    (a5 : Memref sig .tc .vmem S1x1x1 .f32) (h5 : a5.IsWhole) (hc : ¬cond0_0 i)
    (x0 x1 : Vec F S8x17x128x128 .f32) (xo2 xo3 : Vec F S1x1x1 .f32) :
    out0_B_3 c i a2 h2 a3 h3 a4 h4 a5 h5 hc x0 x1 xo2 xo3 = stepB xo3 (blockSim x0 x1) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S1x1x1) hz3]
  rfl

/-- A core's first point, first output: zero plus the matched-channel sum of the point. -/
theorem out_A_2 (c : Dev nD) (i : grid0.Coords) (a2 : Memref sig .tc .vmem S8x17x128x128 .f32) (h2 : a2.IsWhole)
    (a3 : Memref sig .tc .vmem S8x17x128x128 .f32) (h3 : a3.IsWhole) (a4 : Memref sig .tc .vmem S1x1x1 .f32) (h4 : a4.IsWhole)
    (a5 : Memref sig .tc .vmem S1x1x1 .f32) (h5 : a5.IsWhole) (hc : cond0_0 i)
    (x0 x1 : Vec F S8x17x128x128 .f32) :
    out0_A_2 c i a2 h2 a3 h3 a4 h4 a5 h5 hc x0 x1 = stepA (blockPos x0 x1) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x1) hz3]
  simp only [View.readCov_unit_zero (S := S1x1x1) _ hz3, View.readAt_eq_ld, h2.read_unread, h3.read_unread, View.ld_unit_zero (S := S1x1x1) hz3]
  rfl

/-- A core's first point, second output: zero plus the all-pairs sum of the point. -/
theorem out_A_3 (c : Dev nD) (i : grid0.Coords) (a2 : Memref sig .tc .vmem S8x17x128x128 .f32) (h2 : a2.IsWhole)
    (a3 : Memref sig .tc .vmem S8x17x128x128 .f32) (h3 : a3.IsWhole) (a4 : Memref sig .tc .vmem S1x1x1 .f32) (h4 : a4.IsWhole)
    (a5 : Memref sig .tc .vmem S1x1x1 .f32) (h5 : a5.IsWhole) (hc : cond0_0 i)
    (x0 x1 : Vec F S8x17x128x128 .f32) :
    out0_A_3 c i a2 h2 a3 h3 a4 h4 a5 h5 hc x0 x1 = stepA (blockSim x0 x1) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3]
  simp only [View.readCov_unit_zero (S := S1x1x1) _ hz3, View.readAt_eq_ld, h2.read_unread, h3.read_unread, View.ld_unit_zero (S := S1x1x1) hz3]
  rfl

end Cert.KernelIdeal.BodyRun
end
-- ==== Proof.KChain.lean ====
/-
  The two one-element output blocks point by point. The grid has eight points, four per core, and an output
  block is written back only after a core's last point; in between it carries a running sum. `chain` is that running
  sum in closed form: reset and add at a core's first point, add at the others. The contents the frame run found
  are this chain, by induction on the point.
-/
import proofs.«102934_j90649579749529_2_alg».proof.Proof.KBody

set_option maxRecDepth 16384

noncomputable section

open Idealize.ShloMosaic Idealize.ShloMosaic.TcCoe Idealize.SL.Sem
open Idealize.ShloMosaic.Pipeline (Dat)

namespace Cert.KernelIdeal.BodyRun

open Cert.KernelIdeal Cert.KernelIdeal.Gen Cert.KernelIdeal.Body

variable {F : FTy → Type} [FloatOps F]
variable (m : (ℓ : Loc nD τ sig) → Buf (Elt F) ℓ)

/-- The matched-channel sum and the all-pairs sum of the eight samples point `t` stages. -/
def bp (c : Dev nD) (t : Fin cfg0.N) : FVec F S1x1 .f32 := blockPos (iblk m c 0 t) (iblk m c 1 t)
def bs (c : Dev nD) (t : Fin cfg0.N) : FVec F S1x1 .f32 := blockSim (iblk m c 0 t) (iblk m c 1 t)

/-- The running contents of the two output blocks after point `n`. -/
def chain (c : Dev nD) : (n : ℕ) → n < cfg0.N → Vec F S1x1x1 .f32 × Vec F S1x1x1 .f32
  | 0, h => (stepA (bp m c ⟨0, h⟩), stepA (bs m c ⟨0, h⟩))
  | n + 1, h =>
    if (n + 1) % 4 = 0 then (stepA (bp m c ⟨n + 1, h⟩), stepA (bs m c ⟨n + 1, h⟩))
    else (stepB (chain c n (Nat.lt_of_succ_lt h)).1 (bp m c ⟨n + 1, h⟩), stepB (chain c n (Nat.lt_of_succ_lt h)).2 (bs m c ⟨n + 1, h⟩))

/-- What the run found in the two blocks after point `n` is the chain. -/
theorem outsAt_eq (c : Dev nD) : ∀ (n : ℕ) (h : n < cfg0.N), outsAt0 m c n h = chain m c n h
  | 0, h => by
    rw [outsAt0_A m c ⟨0, h⟩ rfl]
    exact Prod.ext
      (out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩))
      (out_A_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩))
  | n + 1, h => by
    by_cases h0 : (n + 1) % 4 = 0
    · rw [outsAt0_A m c ⟨n + 1, h⟩ h0]
      unfold chain
      rw [if_pos h0]
      exact Prod.ext
        (out_A_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) ((hcond0_0 ⟨n + 1, h⟩).mpr h0) (iblk m c 0 ⟨n + 1, h⟩) (iblk m c 1 ⟨n + 1, h⟩))
        (out_A_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) ((hcond0_0 ⟨n + 1, h⟩).mpr h0) (iblk m c 0 ⟨n + 1, h⟩) (iblk m c 1 ⟨n + 1, h⟩))
    · have hB : ¬(⟨n + 1, h⟩ : Fin cfg0.N).val % 4 = 0 := h0
      have hp : (⟨n + 1, h⟩ : Fin cfg0.N).val - 1 < cfg0.N := Nat.lt_of_le_of_lt (Nat.sub_le _ _) (⟨n + 1, h⟩ : Fin cfg0.N).isLt
      rw [outsAt0_B m c ⟨n + 1, h⟩ hB]
      unfold chain
      rw [if_neg h0]
      refine Prod.ext ?_ ?_
      · refine (out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (fun hh => hB ((hcond0_0 ⟨n + 1, h⟩).mp hh)) (iblk m c 0 ⟨n + 1, h⟩) (iblk m c 1 ⟨n + 1, h⟩) (outsAt0 m c ((⟨n + 1, h⟩ : Fin cfg0.N).val - 1) hp).1 (outsAt0 m c ((⟨n + 1, h⟩ : Fin cfg0.N).val - 1) hp).2).trans ?_
        show stepB (outsAt0 m c n _).1 _ = stepB (chain m c n _).1 _
        rw [outsAt_eq c n]
        rfl
      · refine (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) (fun hh => hB ((hcond0_0 ⟨n + 1, h⟩).mp hh)) (iblk m c 0 ⟨n + 1, h⟩) (iblk m c 1 ⟨n + 1, h⟩) (outsAt0 m c ((⟨n + 1, h⟩ : Fin cfg0.N).val - 1) hp).1 (outsAt0 m c ((⟨n + 1, h⟩ : Fin cfg0.N).val - 1) hp).2).trans ?_
        show stepB (outsAt0 m c n _).2 _ = stepB (chain m c n _).2 _
        rw [outsAt_eq c n]
        rfl

end Cert.KernelIdeal.BodyRun
end
-- ==== Proof.KFinal.lean ====
/-
  The two result arrays of the region. Each is [2,1,1]: entry (core, 0, 0) is written back once, after the
  core's fourth point, and holds the core's running sum there. So the array after the run is, entry by entry, the
  chain after point 4·core + 3.
-/
import proofs.«102934_j90649579749529_2_alg».proof.Proof.KChain
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BodyRun

open Cert.KernelIdeal Cert.KernelIdeal.Gen Cert.KernelIdeal.Body

variable {F : FTy → Type} [FloatOps F]
variable (m : (ℓ : Loc nD τ sig) → Buf (Elt F) ℓ) (ρ : Dev nD → PrngReg)

/-- The one index of a one-element block. -/
abbrev j0 : S1x1x1.Idx := ix3 (0 : Fin 1) (0 : Fin 1) (0 : Fin 1)

theorem idx_eq_j0 (j : S1x1x1.Idx) : j = j0 := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- The last point of a core. -/
theorem last_lt (i : S2x1x1.Idx) : 4 * (i 0).val + 3 < cfg0.N := by
  have h8 : cfg0.N = 8 := N_0
  have : (i 0).val < 2 := (i 0).isLt
  omega

/-- The chain depends on the point's number only. -/
theorem chain_congr (c : Dev nD) {n n' : ℕ} (e : n = n') (h : n < cfg0.N) (h' : n' < cfg0.N) :
    chain m c n h = chain m c n' h' := by subst e; rfl

/-- The two result arrays in closed form: entry (core, 0, 0) is the chain after the core's last point. -/
def G2 (c : Dev nD) : S2x1x1.Idx → Elt F .f32 := fun i => (chain m c (4 * (i 0).val + 3) (last_lt i)).1 j0
def G3 (c : Dev nD) : S2x1x1.Idx → Elt F .f32 := fun i => (chain m c (4 * (i 0).val + 3) (last_lt i)).2 j0

/-- The output windows' index maps over the grid: point t is on core t / 4. -/
theorem idx_facts : ∀ t : Fin cfg0.N, win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- What a core's last point writes back is its entry of `G2`. -/
theorem flushed_eq2 (c : Dev nD) (t : Fin cfg0.N) (hf : (cfg0.win 2).flush t = true) :
    (dats m 0 c).flushed 2 t = ((cfg0.win 2).blk t).view.read (Elt F) (G2 m c) := by
  have h3 : t.val % 4 = 3 := (flush0_2 t).mp hf
  obtain ⟨e0, e1, e2, -, -, -⟩ := idx_facts t
  show (cfg0.win 2).cut (grid0.coords t) ((dats m 0 c).after 2 t) = _
  rw [after0_2, outsAt_eq]
  funext j
  obtain rfl : j = j0 := idx_eq_j0 j
  show (chain m c t.val t.isLt).1 j0 = G2 m c (((cfg0.win 2).blk t).view.emb j0)
  have he : ((((cfg0.win 2).blk t).view.emb j0) 0).val = t.val / 4 := by
    show win0_2.index t (0 : Fin 3) * 1 + 1 * 0 = t.val / 4
    rw [e0]; omega
  have e4 : t.val = 4 * ((((cfg0.win 2).blk t).view.emb j0) 0).val + 3 := by rw [he]; omega
  unfold G2
  exact congrArg (fun p => p.1 j0) (chain_congr m c e4 _ _)

theorem flushed_eq3 (c : Dev nD) (t : Fin cfg0.N) (hf : (cfg0.win 3).flush t = true) :
    (dats m 0 c).flushed 3 t = ((cfg0.win 3).blk t).view.read (Elt F) (G3 m c) := by
  have h3 : t.val % 4 = 3 := (flush0_3 t).mp hf
  obtain ⟨-, -, -, e0, e1, e2⟩ := idx_facts t
  show (cfg0.win 3).cut (grid0.coords t) ((dats m 0 c).after 3 t) = _
  rw [after0_3, outsAt_eq]
  funext j
  obtain rfl : j = j0 := idx_eq_j0 j
  show (chain m c t.val t.isLt).2 j0 = G3 m c (((cfg0.win 3).blk t).view.emb j0)
  have he : ((((cfg0.win 3).blk t).view.emb j0) 0).val = t.val / 4 := by
    show win0_3.index t (0 : Fin 3) * 1 + 1 * 0 = t.val / 4
    rw [e0]; omega
  have e4 : t.val = 4 * ((((cfg0.win 3).blk t).view.emb j0) 0).val + 3 := by rw [he]; omega
  unfold G3
  exact congrArg (fun p => p.2 j0) (chain_congr m c e4 _ _)

/-- An index of a result array is in point `t`'s block iff each coordinate is in the block's range on its axis. -/
theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- Every entry of a result array is in the block of its core's last point. -/
theorem cover2 (c : Dev nD) (i : S2x1x1.Idx) :
    ∃ t : Fin cfg0.N, (cfg0.win 2).flush t = true ∧ i ∈ ((cfg0.win 2).blk t).view.set := by
  refine ⟨⟨4 * (i 0).val + 3, last_lt i⟩, (flush0_2 _).mpr (by show (4 * (i 0).val + 3) % 4 = 3; omega), ?_⟩
  obtain ⟨e0, e1, e2, -, -, -⟩ := idx_facts ⟨4 * (i 0).val + 3, last_lt i⟩
  rw [mem_blk2]
  intro a
  have h0 : (i 0).val < 2 := (i 0).isLt
  have h1 : (i 1).val < 1 := (i 1).isLt
  have h2 : (i 2).val < 1 := (i 2).isLt
  match a with
  | ⟨0, _⟩ =>
    show win0_2.index _ (0 : Fin 3) * 1 ≤ (i 0).val ∧ (i 0).val < win0_2.index _ (0 : Fin 3) * 1 + 1
    rw [e0]; show (4 * (i 0).val + 3) / 4 * 1 ≤ (i 0).val ∧ (i 0).val < (4 * (i 0).val + 3) / 4 * 1 + 1; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

theorem cover3 (c : Dev nD) (i : S2x1x1.Idx) :
    ∃ t : Fin cfg0.N, (cfg0.win 3).flush t = true ∧ i ∈ ((cfg0.win 3).blk t).view.set := by
  refine ⟨⟨4 * (i 0).val + 3, last_lt i⟩, (flush0_3 _).mpr (by show (4 * (i 0).val + 3) % 4 = 3; omega), ?_⟩
  obtain ⟨-, -, -, e0, e1, e2⟩ := idx_facts ⟨4 * (i 0).val + 3, last_lt i⟩
  rw [mem_blk3]
  intro a
  have h0 : (i 0).val < 2 := (i 0).isLt
  have h1 : (i 1).val < 1 := (i 1).isLt
  have h2 : (i 2).val < 1 := (i 2).isLt
  match a with
  | ⟨0, _⟩ =>
    show win0_3.index _ (0 : Fin 3) * 1 ≤ (i 0).val ∧ (i 0).val < win0_3.index _ (0 : Fin 3) * 1 + 1
    rw [e0]; show (4 * (i 0).val + 3) / 4 * 1 ≤ (i 0).val ∧ (i 0).val < (4 * (i 0).val + 3) / 4 * 1 + 1; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 1 ≤ (i 2).val ∧ (i 2).val < win0_3.index _ (2 : Fin 3) * 1 + 1
    rw [e2]; omega

/-- The result arrays after the run. -/
theorem final2 (c : Dev nD) : (dats m 0 c).arrAt 2 cfg0.N = G2 m c :=
  (dats m 0 c).arrAt_eq_of_cover 2 (G2 m c) (flushed_eq2 m c) (cover2 c)
theorem final3 (c : Dev nD) : (dats m 0 c).arrAt 3 cfg0.N = G3 m c :=
  (dats m 0 c).arrAt_eq_of_cover 3 (G3 m c) (flushed_eq3 m c) (cover3 c)

end Cert.KernelIdeal.BodyRun
end
-- ==== Proof.Spec.lean ====
/-
  The loss both programs compute, written once over the extended reals with explicit coordinates.

  For a sample `a : [17,128,128]` the two marginal means are `meanLast a c h = (∑ w, a c h w) / 128` and
  `meanMid a c w = (∑ h, a c h w) / 128`. A row `u` of 128 numbers is made a distribution by the shifted
  softmax `smax u s = exp (u s - max u) / ∑ t, exp (u t - max u)` and then a unit vector by
  `l2n p s = p s / max (sqrt (∑ t, p t ^ 2)) eps`; `nrm = l2n ∘ smax`.
  With `A, B` the normalised row marginals of the two inputs and `C, D` the column marginals, sample `n`
  contributes `pos n = ∑ c, (⟨A c, B c⟩ + ⟨C c, D c⟩) / 2` (matched channels) and
  `sim n = (⟨∑ i, A i, ∑ j, B j⟩ + ⟨∑ i, C i, ∑ j, D j⟩) / 2` (all pairs of channels, the double sum pulled
  inside the inner product).  The loss is `-log ((∑ pos / 1088) / (∑ sim / 64)) / 17 / 64`.
  `kernRes` sums the samples in the order core, step, sample-in-block; `refRes` sums matched channels over
  (n, c) and takes the all-pairs term as `∑ i j, (∑ n, (⟨A n i, B n j⟩ + ⟨C n i, D n j⟩) / 2) / 64`.
-/
import Idealize.ShloMosaic.PureOps.Ideal
import Idealize.ShloMosaic.PureOps.Ideal.Laws
import Idealize.ShloMosaic.Lib.ValueIdx

noncomputable section

namespace CstLoss

open Idealize.ShloMosaic

/-- The float words the two programs share, read as extended reals. -/
def k0 : EReal := Ideal.ofBits .f32 0x00000000#32
def k128 : EReal := Ideal.ofBits .f32 0x43000000#32
def keps : EReal := Ideal.ofBits .f32 0x322BCC77#32
def khalf : EReal := Ideal.ofBits .f32 0x3F000000#32
def k1088 : EReal := Ideal.ofBits .f32 0x44880000#32
def k64 : EReal := Ideal.ofBits .f32 0x42800000#32
def k17 : EReal := Ideal.ofBits .f32 0x41880000#32
def kninf : EReal := Ideal.ofBits .f32 0xFF800000#32

/-- Mean over the last axis of a sample. -/
def meanLast (a : Fin 17 → Fin 128 → Fin 128 → EReal) (c : Fin 17) (h : Fin 128) : EReal :=
  Ideal.div (∑ w : Fin 128, a c h w) k128

/-- Mean over the middle axis of a sample. -/
def meanMid (a : Fin 17 → Fin 128 → Fin 128 → EReal) (c : Fin 17) (w : Fin 128) : EReal :=
  Ideal.div (∑ h : Fin 128, a c h w) k128

/-- The maximum of a row, folded from -∞. -/
def rmax (u : Fin 128 → EReal) : EReal := (Finset.univ : Finset (Fin 128)).fold max kninf u

/-- The shifted softmax of a row. -/
def smax (u : Fin 128 → EReal) (s : Fin 128) : EReal :=
  Ideal.div (Ideal.exp (u s - rmax u)) (∑ t : Fin 128, Ideal.exp (u t - rmax u))

/-- A row divided by its Euclidean norm clamped below by eps. -/
def l2n (p : Fin 128 → EReal) (s : Fin 128) : EReal :=
  Ideal.div (p s) (max (Ideal.sqrt (∑ t : Fin 128, p t * p t)) keps)

/-- Softmax, then normalisation. -/
def nrm (u : Fin 128 → EReal) : Fin 128 → EReal := l2n (smax u)

/-- The matched-channel term of one sample. -/
def posOf (A B C D : Fin 17 → Fin 128 → EReal) : EReal :=
  ∑ c : Fin 17, ((∑ s : Fin 128, A c s * B c s) + (∑ s : Fin 128, C c s * D c s)) * khalf

/-- The all-pairs term of one sample, the sums over channels taken first. -/
def simOf (A B C D : Fin 17 → Fin 128 → EReal) : EReal :=
  ((∑ s : Fin 128, (∑ i : Fin 17, A i s) * (∑ j : Fin 17, B j s))
    + (∑ s : Fin 128, (∑ i : Fin 17, C i s) * (∑ j : Fin 17, D j s))) * khalf

abbrev Arr := Fin 64 → Fin 17 → Fin 128 → Fin 128 → EReal

/-- A [64,17,128,128] array and a [17,128,128] sample read by coordinates. -/
def curry4 (x : (⟨4, ![64, 17, 128, 128]⟩ : Shape).Idx → EReal) : Arr :=
  fun n c h w => x (ValueIdx.ix4 n c h w)
def curry3 (a : (⟨3, ![17, 128, 128]⟩ : Shape).Idx → EReal) : Fin 17 → Fin 128 → Fin 128 → EReal :=
  fun c h w => a (ValueIdx.ix3 c h w)

/-- Normalised row marginal of sample `n`, channel `c`. -/
def nRow (X : Arr) (n : Fin 64) (c : Fin 17) : Fin 128 → EReal := nrm (meanLast (X n) c)
/-- Normalised column marginal of sample `n`, channel `c`. -/
def nCol (X : Arr) (n : Fin 64) (c : Fin 17) : Fin 128 → EReal := nrm (meanMid (X n) c)

def pos (X Y : Arr) (n : Fin 64) : EReal := posOf (nRow X n) (nRow Y n) (nCol X n) (nCol Y n)
def sim (X Y : Arr) (n : Fin 64) : EReal := simOf (nRow X n) (nRow Y n) (nCol X n) (nCol Y n)

/-- Sample `i` of the block at step `j` of core `core`. -/
def sampleIdx (core : Fin 2) (j : Fin 4) (i : Fin 8) : Fin 64 :=
  ⟨(core.val * 4 + j.val) * 8 + i.val, by have := core.isLt; have := j.isLt; have := i.isLt; omega⟩

/-- The scalar epilogue both programs share. -/
def tail (P S : EReal) : EReal := Ideal.div (Ideal.div (-(Ideal.log (Ideal.div P S))) k17) k64

/-- The loss as the kernel accumulates it. -/
def kernRes (X Y : Arr) : EReal :=
  tail (Ideal.div (k0 + ∑ core : Fin 2, ∑ j : Fin 4, ∑ i : Fin 8, pos X Y (sampleIdx core j i)) k1088)
    (Ideal.div (k0 + ∑ core : Fin 2, ∑ j : Fin 4, ∑ i : Fin 8, sim X Y (sampleIdx core j i)) k64)

/-- The loss as the reference computes it. -/
def refRes (X Y : Arr) : EReal :=
  tail (Ideal.div (k0 + ∑ n : Fin 64, ∑ c : Fin 17,
      ((∑ s : Fin 128, nRow X n c s * nRow Y n c s) + (∑ s : Fin 128, nCol X n c s * nCol Y n c s)) * khalf) k1088)
    (k0 + ∑ i : Fin 17, ∑ j : Fin 17, Ideal.div (k0 + ∑ n : Fin 64,
      ((∑ s : Fin 128, nRow X n i s * nRow Y n j s) + (∑ s : Fin 128, nCol X n i s * nCol Y n j s)) * khalf) k64)

end CstLoss

end
-- ==== Proof.KReadLayout.lean ====
/-
  The reductions and the shape changes of one sample's arithmetic, each read at an index given by coordinates:
  a sum or a maximum along one axis is the sum or the fold of max over that axis's coordinate, a column view
  [17] → [17,1] and its spread [17,1] → [17,128] read the entry of the row, and a leading unit axis changes nothing.
-/
import proofs.«102934_j90649579749529_2_alg».proof.Proof.Spec
import proofs.«102934_j90649579749529_2_alg».proof.Proof.KSampleDefs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Facts₀

/-- The sum over the last axis of a [17,128,128] array. -/
theorem sumLast_apply (a : FVec Ideal S17x128x128 .f32) (c : Fin 17) (h : Fin 128) :
    multiReduction (F := Ideal) .add [2] S17x128 a 0x00000000#32 reduces_S17x128x128_S17x128 (.inl rfl) rfl (ix2 c h)
      = ∑ w : Fin 128, a (ix3 c h w) := by
  refine (Ideal.multiReduction_add_single a _ reduces_S17x128x128_S17x128 _ _ (ix2 c h)).trans ?_
  show ∑ k : Fin 128, a (reduces_S17x128x128_S17x128.lift (ix2 c h) k) = _
  refine Finset.sum_congr rfl fun k _ => congrArg a ?_
  funext d
  refine Fin.ext ?_
  match d with
  | ⟨0, _⟩ => rfl
  | ⟨1, _⟩ => rfl
  | ⟨2, _⟩ => rfl

/-- The sum over the middle axis of a [17,128,128] array. -/
theorem sumMid_apply (a : FVec Ideal S17x128x128 .f32) (c : Fin 17) (w : Fin 128) :
    multiReduction (F := Ideal) .add [1] S17x128 a 0x00000000#32 reduces_S17x128x128_S17x128_2 (.inl rfl) rfl (ix2 c w)
      = ∑ h : Fin 128, a (ix3 c h w) := by
  refine (Ideal.multiReduction_add_single a _ reduces_S17x128x128_S17x128_2 _ _ (ix2 c w)).trans ?_
  show ∑ k : Fin 128, a (reduces_S17x128x128_S17x128_2.lift (ix2 c w) k) = _
  refine Finset.sum_congr rfl fun k _ => congrArg a ?_
  funext d
  refine Fin.ext ?_
  match d with
  | ⟨0, _⟩ => rfl
  | ⟨1, _⟩ => rfl
  | ⟨2, _⟩ => rfl

/-- The sum of each row of a [17,128] array. -/
theorem rowSum_apply (e : FVec Ideal S17x128 .f32) (c : Fin 17) :
    multiReduction (F := Ideal) .add [1] S17 e 0x00000000#32 reduces_S17x128_S17 (.inl rfl) rfl (ix1 c)
      = ∑ t : Fin 128, e (ix2 c t) := by
  refine (Ideal.multiReduction_add_single e _ reduces_S17x128_S17 _ _ (ix1 c)).trans ?_
  show ∑ k : Fin 128, e (reduces_S17x128_S17.lift (ix1 c) k) = _
  refine Finset.sum_congr rfl fun k _ => congrArg e ?_
  funext d
  refine Fin.ext ?_
  match d with
  | ⟨0, _⟩ => rfl
  | ⟨1, _⟩ => rfl

/-- The maximum of each row of a [17,128] array, folded from -∞. -/
theorem rowMax_apply (u : FVec Ideal S17x128 .f32) (c : Fin 17) :
    multiReduction (F := Ideal) .maximumf [1] S17 u 0xFF800000#32 reduces_S17x128_S17 (.inl rfl) rfl (ix1 c)
      = CstLoss.rmax (fun t => u (ix2 c t)) := by
  refine (Ideal.multiReduction_maximumf_single u _ reduces_S17x128_S17 _ _ (ix1 c)).trans ?_
  have e : (u ∘ reduces_S17x128_S17.lift (ix1 c) : Fin 128 → EReal) = fun t => u (ix2 c t) := by
    funext k
    refine congrArg u ?_
    funext d
    refine Fin.ext ?_
    match d with
    | ⟨0, _⟩ => rfl
    | ⟨1, _⟩ => rfl
  exact congrArg (fun f : Fin 128 → EReal => (Finset.univ : Finset (Fin 128)).fold max CstLoss.kninf f) e

/-- A [17] array viewed as a [17,1] column. -/
theorem col_apply {α : Type} (v : S17.Idx → α) (c : Fin 17) (z : Fin 1) :
    shapeCast S17x1 v shapeCasts_S17_S17x1 (ix2 c z) = v (ix1 c) :=
  shapeCast_apply v shapeCasts_S17_S17x1 _ _ (by
    have hz : z.val = 0 := by omega
    rw [Shape.rowMajor_val_one, Shape.rowMajor_val_two]
    show c.val = c.val * 1 + z.val
    rw [hz, Nat.mul_one, Nat.add_zero])

/-- A [17,1] column spread over 128 lanes. -/
theorem spread_apply {α : Type} (v : S17x1.Idx → α) (c : Fin 17) (s : Fin 128) :
    broadcastTo S17x128 v broadcasts_S17x1_S17x128 (ix2 c s) = v (ix2 c (0 : Fin 1)) := by
  refine broadcastTo_apply v broadcasts_S17x1_S17x128 (ix2 c s) (ix2 c (0 : Fin 1)) fun ax => ?_
  match ax with
  | ⟨0, _⟩ => rfl
  | ⟨1, _⟩ => rfl

/-- A [17,1] column with a leading unit axis added. -/
theorem lead171_apply {α : Type} (v : S17x1.Idx → α) (u : Fin 1) (c : Fin 17) (z : Fin 1) :
    shapeCast S1x17x1 v shapeCasts_S17x1_S1x17x1 (ix3 u c z) = v (ix2 c z) :=
  shapeCast_ab_1ab_apply v shapeCasts_S17x1_S1x17x1 u c z

/-- A [17,128] array with a leading unit axis added. -/
theorem lead17128_apply {α : Type} (v : S17x128.Idx → α) (u : Fin 1) (c : Fin 17) (s : Fin 128) :
    shapeCast S1x17x128 v shapeCasts_S17x128_S1x17x128 (ix3 u c s) = v (ix2 c s) :=
  shapeCast_ab_1ab_apply v shapeCasts_S17x128_S1x17x128 u c s

/-- A [1] array viewed as [1,1]. -/
theorem lead1_apply {α : Type} (v : S1.Idx → α) (u z : Fin 1) :
    shapeCast S1x1 v shapeCasts_S1_S1x1 (ix2 u z) = v (ix1 z) :=
  shapeCast_a_1a_apply v shapeCasts_S1_S1x1 u z

/-- The sum over the 17 channels of a [1,17,1] array. -/
theorem chanSum1_apply (x : FVec Ideal S1x17x1 .f32) (u z : Fin 1) :
    multiReduction (F := Ideal) .add [1] S1x1 x 0x00000000#32 reduces_S1x17x1_S1x1 (.inl rfl) rfl (ix2 u z)
      = ∑ c : Fin 17, x (ix3 u c z) := by
  refine (Ideal.multiReduction_add_single x _ reduces_S1x17x1_S1x1 _ _ (ix2 u z)).trans ?_
  show ∑ k : Fin 17, x (reduces_S1x17x1_S1x1.lift (ix2 u z) k) = _
  refine Finset.sum_congr rfl fun k _ => congrArg x ?_
  funext d
  refine Fin.ext ?_
  match d with
  | ⟨0, _⟩ => rfl
  | ⟨1, _⟩ => rfl
  | ⟨2, _⟩ => rfl

/-- The sum over the 17 channels of a [1,17,128] array. -/
theorem chanSum_apply (x : FVec Ideal S1x17x128 .f32) (u : Fin 1) (s : Fin 128) :
    multiReduction (F := Ideal) .add [1] S1x128 x 0x00000000#32 reduces_S1x17x128_S1x128 (.inl rfl) rfl (ix2 u s)
      = ∑ c : Fin 17, x (ix3 u c s) := by
  refine (Ideal.multiReduction_add_single x _ reduces_S1x17x128_S1x128 _ _ (ix2 u s)).trans ?_
  show ∑ k : Fin 17, x (reduces_S1x17x128_S1x128.lift (ix2 u s) k) = _
  refine Finset.sum_congr rfl fun k _ => congrArg x ?_
  funext d
  refine Fin.ext ?_
  match d with
  | ⟨0, _⟩ => rfl
  | ⟨1, _⟩ => rfl
  | ⟨2, _⟩ => rfl

/-- The sum over the 128 lanes of a [1,128] row. -/
theorem laneSum_apply (x : FVec Ideal S1x128 .f32) (u : Fin 1) :
    multiReduction (F := Ideal) .add [1] S1 x 0x00000000#32 reduces_S1x128_S1 (.inl rfl) rfl (ix1 u)
      = ∑ s : Fin 128, x (ix2 u s) := by
  refine (Ideal.multiReduction_add_single x _ reduces_S1x128_S1 _ _ (ix1 u)).trans ?_
  show ∑ k : Fin 128, x (reduces_S1x128_S1.lift (ix1 u) k) = _
  refine Finset.sum_congr rfl fun k _ => congrArg x ?_
  funext d
  refine Fin.ext ?_
  match d with
  | ⟨0, _⟩ => rfl
  | ⟨1, _⟩ => rfl

end Cert.KernelIdeal.Body

end
-- ==== Proof.KReadNorm.lean ====
/-
  The two marginal means, the shifted softmax of a row and the row divided by its clamped norm, as the kernel
  body computes them on [17,128] arrays, read at the entry (c, s): they are the specification's functions of
  the row c.
-/
import proofs.«102934_j90649579749529_2_alg».proof.Proof.Spec
import proofs.«102934_j90649579749529_2_alg».proof.Proof.KSampleDefs
import Idealize.ShloMosaic.Lib.ValueIdx
import Idealize.ShloMosaic.Lib.Pipeline.Value
import Idealize.ShloMosaic.Lib.ValueLayout
import Idealize.ShloMosaic.PureOps.Ideal.Laws
import proofs.«102934_j90649579749529_2_alg».proof.Proof.KReadLayout

noncomputable section

namespace Cert.KernelIdeal.Body

open Idealize.ShloMosaic Idealize.ShloMosaic.ValueIdx Cert.KernelIdeal Cert.KernelIdeal.Facts₀

/-- The mean over the last axis at (c, h). -/
theorem meanL_apply (a : FVec Ideal S17x128x128 .f32) (c : Fin 17) (h : Fin 128) :
    meanL (F := Ideal) a (ix2 c h) = CstLoss.meanLast (CstLoss.curry3 a) c h := by
  unfold meanL
  refine (divf_apply _ _ _).trans ?_
  exact congrArg (fun x => Ideal.div x CstLoss.k128) (sumLast_apply a c h)

/-- The mean over the middle axis at (c, w). -/
theorem meanM_apply (a : FVec Ideal S17x128x128 .f32) (c : Fin 17) (w : Fin 128) :
    meanM (F := Ideal) a (ix2 c w) = CstLoss.meanMid (CstLoss.curry3 a) c w := by
  unfold meanM
  refine (divf_apply _ _ _).trans ?_
  exact congrArg (fun x => Ideal.div x CstLoss.k128) (sumMid_apply a c w)

/-- exp of an entry minus its row's maximum. -/
theorem expShift_apply (u : FVec Ideal S17x128 .f32) (c : Fin 17) (s : Fin 128) :
    expShift (F := Ideal) u (ix2 c s)
      = Ideal.exp (u (ix2 c s) - CstLoss.rmax (fun t => u (ix2 c t))) := by
  unfold expShift
  exact congrArg (fun m => Ideal.exp (u (ix2 c s) - m))
    ((spread_apply _ c s).trans ((col_apply _ c 0).trans (rowMax_apply u c)))

/-- An entry divided by its row's sum. -/
theorem divRowSum_apply (e : FVec Ideal S17x128 .f32) (c : Fin 17) (s : Fin 128) :
    divRowSum (F := Ideal) e (ix2 c s) = Ideal.div (e (ix2 c s)) (∑ t : Fin 128, e (ix2 c t)) := by
  unfold divRowSum
  refine (divf_apply _ _ _).trans ?_
  exact congrArg (fun m => Ideal.div (e (ix2 c s)) m)
    ((spread_apply _ c s).trans ((col_apply _ c 0).trans (rowSum_apply e c)))

/-- The shifted softmax of row c at s. -/
theorem softmaxV_apply (u : FVec Ideal S17x128 .f32) (c : Fin 17) (s : Fin 128) :
    softmaxV (F := Ideal) u (ix2 c s) = CstLoss.smax (fun t => u (ix2 c t)) s := by
  unfold softmaxV
  refine (divRowSum_apply _ c s).trans ?_
  exact congrArg₂ Ideal.div (expShift_apply u c s) (Finset.sum_congr rfl fun t _ => expShift_apply u c t)

/-- Row c divided by its clamped Euclidean norm, at s. -/
theorem l2nV_apply (p : FVec Ideal S17x128 .f32) (c : Fin 17) (s : Fin 128) :
    l2nV (F := Ideal) p (ix2 c s) = CstLoss.l2n (fun t => p (ix2 c t)) s := by
  unfold l2nV
  refine (divf_apply _ _ _).trans ?_
  refine congrArg (fun m => Ideal.div (p (ix2 c s)) m) ?_
  refine (spread_apply _ c s).trans ?_
  refine congrArg (fun m => max (Ideal.sqrt m) CstLoss.keps) ?_
  exact (col_apply _ c 0).trans (rowSum_apply (mulf p p) c)

/-- Softmax then normalisation of row c, at s. -/
theorem nrmV_apply (u : FVec Ideal S17x128 .f32) (c : Fin 17) (s : Fin 128) :
    l2nV (F := Ideal) (softmaxV (F := Ideal) u) (ix2 c s) = CstLoss.nrm (fun t => u (ix2 c t)) s := by
  refine (l2nV_apply _ c s).trans ?_
  have e : (fun t => softmaxV (F := Ideal) u (ix2 c t)) = CstLoss.smax (fun t => u (ix2 c t)) :=
    funext fun t => softmaxV_apply u c t
  show CstLoss.l2n _ s = CstLoss.l2n (CstLoss.smax (fun t => u (ix2 c t))) s
  rw [e]

/-- The normalised row marginal. -/
theorem nRowV_apply (a : FVec Ideal S17x128x128 .f32) (c : Fin 17) (s : Fin 128) :
    nRowV (F := Ideal) a (ix2 c s) = CstLoss.nrm (CstLoss.meanLast (CstLoss.curry3 a) c) s := by
  unfold nRowV
  refine (nrmV_apply _ c s).trans ?_
  have e : (fun t => meanL (F := Ideal) a (ix2 c t)) = CstLoss.meanLast (CstLoss.curry3 a) c :=
    funext fun t => meanL_apply a c t
  rw [e]

/-- The normalised column marginal. -/
theorem nColV_apply (a : FVec Ideal S17x128x128 .f32) (c : Fin 17) (s : Fin 128) :
    nColV (F := Ideal) a (ix2 c s) = CstLoss.nrm (CstLoss.meanMid (CstLoss.curry3 a) c) s := by
  unfold nColV
  refine (nrmV_apply _ c s).trans ?_
  have e : (fun t => meanM (F := Ideal) a (ix2 c t)) = CstLoss.meanMid (CstLoss.curry3 a) c :=
    funext fun t => meanM_apply a c t
  rw [e]

end Cert.KernelIdeal.Body

end
-- ==== Proof.KReadTerms.lean ====
/-
  The two terms of one sample from four [17,128] arrays, read at the one entry of the [1,1] result: the
  matched-channel term is the sum over channels of the halved sum of two row inner products, and the
  all-pairs term is the halved sum of two inner products of channel sums.
-/
import proofs.«102934_j90649579749529_2_alg».proof.Proof.Spec
import proofs.«102934_j90649579749529_2_alg».proof.Proof.KSampleDefs
import Idealize.ShloMosaic.Lib.ValueIdx
import Idealize.ShloMosaic.Lib.Pipeline.Value
import Idealize.ShloMosaic.Lib.ValueLayout
import Idealize.ShloMosaic.PureOps.Ideal.Laws
import proofs.«102934_j90649579749529_2_alg».proof.Proof.KReadLayout

noncomputable section

namespace Cert.KernelIdeal.Body

open Idealize.ShloMosaic Idealize.ShloMosaic.ValueIdx Cert.KernelIdeal Cert.KernelIdeal.Facts₀

/-- The inner product of row c of two arrays. -/
theorem rowDot_apply (A B : FVec Ideal S17x128 .f32) (c : Fin 17) (z : Fin 1) :
    rowDot (F := Ideal) A B (ix2 c z) = ∑ s : Fin 128, A (ix2 c s) * B (ix2 c s) := by
  unfold rowDot
  exact (col_apply _ c z).trans (rowSum_apply (mulf A B) c)

/-- The matched-channel term at an entry given by coordinates. -/
theorem posV_ix (A B C D : FVec Ideal S17x128 .f32) (u z : Fin 1) :
    posV (F := Ideal) A B C D (ix2 u z)
      = CstLoss.posOf (fun c s => A (ix2 c s)) (fun c s => B (ix2 c s)) (fun c s => C (ix2 c s)) (fun c s => D (ix2 c s)) := by
  unfold posV
  refine (chanSum1_apply _ u z).trans ?_
  unfold CstLoss.posOf
  refine Finset.sum_congr rfl fun c _ => ?_
  refine (lead171_apply _ u c z).trans ?_
  refine (mulf_apply _ _ _).trans ?_
  refine congrArg (fun m => m * CstLoss.khalf) ?_
  refine (addf_apply _ _ _).trans ?_
  exact congrArg₂ (fun x y : EReal => x + y) (rowDot_apply A B c z) (rowDot_apply C D c z)

/-- The matched-channel term. -/
theorem posV_apply (A B C D : FVec Ideal S17x128 .f32) (i : S1x1.Idx) :
    posV (F := Ideal) A B C D i
      = CstLoss.posOf (fun c s => A (ix2 c s)) (fun c s => B (ix2 c s)) (fun c s => C (ix2 c s)) (fun c s => D (ix2 c s)) := by
  obtain ⟨u, z, rfl⟩ : ∃ u z : Fin 1, i = ix2 u z := ⟨i 0, i 1, eq_ix2 i⟩
  exact posV_ix A B C D u z

/-- The sum of the 17 rows at lane s. -/
theorem colSum_apply (A : FVec Ideal S17x128 .f32) (u : Fin 1) (s : Fin 128) :
    colSum (F := Ideal) A (ix2 u s) = ∑ c : Fin 17, A (ix2 c s) := by
  unfold colSum
  exact (chanSum_apply _ u s).trans (Finset.sum_congr rfl fun c _ => lead17128_apply A u c s)

/-- The inner product of two [1,128] rows. -/
theorem laneDot_apply (x y : FVec Ideal S1x128 .f32) (u z : Fin 1) :
    laneDot (F := Ideal) x y (ix2 u z) = ∑ s : Fin 128, x (ix2 z s) * y (ix2 z s) := by
  unfold laneDot
  exact (lead1_apply _ u z).trans (laneSum_apply (mulf x y) z)

/-- The inner product of the channel sums of two arrays. -/
theorem laneDot_colSum (A B : FVec Ideal S17x128 .f32) (u z : Fin 1) :
    laneDot (F := Ideal) (colSum (F := Ideal) A) (colSum (F := Ideal) B) (ix2 u z)
      = ∑ s : Fin 128, (∑ i : Fin 17, A (ix2 i s)) * (∑ j : Fin 17, B (ix2 j s)) := by
  refine (laneDot_apply _ _ u z).trans (Finset.sum_congr rfl fun s _ => ?_)
  exact congrArg₂ (fun x y : EReal => x * y) (colSum_apply A z s) (colSum_apply B z s)

/-- The all-pairs term at an entry given by coordinates. -/
theorem simV_ix (A B C D : FVec Ideal S17x128 .f32) (u z : Fin 1) :
    simV (F := Ideal) A B C D (ix2 u z)
      = CstLoss.simOf (fun c s => A (ix2 c s)) (fun c s => B (ix2 c s)) (fun c s => C (ix2 c s)) (fun c s => D (ix2 c s)) := by
  unfold simV
  refine (mulf_apply _ _ _).trans ?_
  unfold CstLoss.simOf
  refine congrArg (fun m => m * CstLoss.khalf) ?_
  refine (addf_apply _ _ _).trans ?_
  exact congrArg₂ (fun x y : EReal => x + y) (laneDot_colSum A B u z) (laneDot_colSum C D u z)

/-- The all-pairs term. -/
theorem simV_apply (A B C D : FVec Ideal S17x128 .f32) (i : S1x1.Idx) :
    simV (F := Ideal) A B C D i
      = CstLoss.simOf (fun c s => A (ix2 c s)) (fun c s => B (ix2 c s)) (fun c s => C (ix2 c s)) (fun c s => D (ix2 c s)) := by
  obtain ⟨u, z, rfl⟩ : ∃ u z : Fin 1, i = ix2 u z := ⟨i 0, i 1, eq_ix2 i⟩
  exact simV_ix A B C D u z

end Cert.KernelIdeal.Body

end
-- ==== Proof.KSampleRead.lean ====
/-
  One sample's two terms in the kernel body are the specification's matched-channel and all-pairs terms of the
  four normalised marginals of the two inputs.
-/
import proofs.«102934_j90649579749529_2_alg».proof.Proof.Spec
import proofs.«102934_j90649579749529_2_alg».proof.Proof.KSampleDefs
import Idealize.ShloMosaic.Lib.ValueIdx
import Idealize.ShloMosaic.Lib.Pipeline.Value
import Idealize.ShloMosaic.Lib.ValueLayout
import Idealize.ShloMosaic.PureOps.Ideal.Laws
import proofs.«102934_j90649579749529_2_alg».proof.Proof.KReadNorm
import proofs.«102934_j90649579749529_2_alg».proof.Proof.KReadTerms

noncomputable section

namespace Cert.KernelIdeal.Body

open Idealize.ShloMosaic Idealize.ShloMosaic.ValueIdx Cert.KernelIdeal Cert.KernelIdeal.Facts₀

/-- The normalised row marginals, as a function of channel and lane. -/
theorem nRowV_fun (a : FVec Ideal S17x128x128 .f32) :
    (fun (c : Fin 17) (s : Fin 128) => nRowV (F := Ideal) a (ix2 c s))
      = fun c => CstLoss.nrm (CstLoss.meanLast (CstLoss.curry3 a) c) :=
  funext fun c => funext fun s => nRowV_apply a c s

/-- The normalised column marginals, as a function of channel and lane. -/
theorem nColV_fun (a : FVec Ideal S17x128x128 .f32) :
    (fun (c : Fin 17) (s : Fin 128) => nColV (F := Ideal) a (ix2 c s))
      = fun c => CstLoss.nrm (CstLoss.meanMid (CstLoss.curry3 a) c) :=
  funext fun c => funext fun s => nColV_apply a c s

/-- The matched-channel term of a sample pair. -/
theorem samplePos_apply (a b : FVec Ideal S17x128x128 .f32) (i : S1x1.Idx) :
    samplePos (F := Ideal) a b i
      = CstLoss.posOf (fun c => CstLoss.nrm (CstLoss.meanLast (CstLoss.curry3 a) c))
          (fun c => CstLoss.nrm (CstLoss.meanLast (CstLoss.curry3 b) c))
          (fun c => CstLoss.nrm (CstLoss.meanMid (CstLoss.curry3 a) c))
          (fun c => CstLoss.nrm (CstLoss.meanMid (CstLoss.curry3 b) c)) := by
  unfold samplePos
  refine (posV_apply _ _ _ _ i).trans ?_
  rw [nRowV_fun a, nRowV_fun b, nColV_fun a, nColV_fun b]

/-- The all-pairs term of a sample pair. -/
theorem sampleSim_apply (a b : FVec Ideal S17x128x128 .f32) (i : S1x1.Idx) :
    sampleSim (F := Ideal) a b i
      = CstLoss.simOf (fun c => CstLoss.nrm (CstLoss.meanLast (CstLoss.curry3 a) c))
          (fun c => CstLoss.nrm (CstLoss.meanLast (CstLoss.curry3 b) c))
          (fun c => CstLoss.nrm (CstLoss.meanMid (CstLoss.curry3 a) c))
          (fun c => CstLoss.nrm (CstLoss.meanMid (CstLoss.curry3 b) c)) := by
  unfold sampleSim
  refine (simV_apply _ _ _ _ i).trans ?_
  rw [nRowV_fun a, nRowV_fun b, nColV_fun a, nColV_fun b]

end Cert.KernelIdeal.Body

end
-- ==== Proof.KBlockRead.lean ====
/-
  A block of eight samples in the kernel body, read by coordinates: sample k of a staged [8,17,128,128] block
  is the block at leading coordinate k, and the body's two running sums over the block are the sums over k of
  the per-sample terms of the specification.
-/
import proofs.«102934_j90649579749529_2_alg».proof.Proof.KBlockDefs
import proofs.«102934_j90649579749529_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Facts₀

/-- Sample `k` of a block, by coordinates. -/
def blk (x : Vec Ideal S8x17x128x128 .f32) (k : Fin 8) : Fin 17 → Fin 128 → Fin 128 → EReal :=
  fun c h w => x (ix4 k c h w)

/-- A [1,17,128,128] window at offset (k,0,0,0), its unit axis dropped, read at (c,h,w) is the block at
    (k,c,h,w): the cast keeps the row-major position, and a unit-stride window adds its offset. -/
theorem slice_read (x : Vec Ideal S8x17x128x128 .f32) (k : Nat) (hk : k < 8)
    (inb : ∀ a, (![k, 0, 0, 0] : Fin 4 → Nat) a + S1x17x128x128.size a ≤ S8x17x128x128.size a)
    (c : Fin 17) (h w : Fin 128) :
    shapeCast S17x128x128 (View.ld x (Rect.unit (s := S8x17x128x128) ![k, 0, 0, 0] S1x17x128x128.size inb))
      shapeCasts_S1x17x128x128_S17x128x128 (ix3 c h w) = x (ix4 ⟨k, hk⟩ c h w) := by
  refine (shapeCast_1abc_abc_apply _ _ c h w).trans ?_
  show x _ = x _
  refine congrArg x (funext fun a => Fin.ext ?_)
  match a with
  | ⟨0, _⟩ => show k + 1 * 0 = k; omega
  | ⟨1, _⟩ => show 0 + 1 * c.val = c.val; omega
  | ⟨2, _⟩ => show 0 + 1 * h.val = h.val; omega
  | ⟨3, _⟩ => show 0 + 1 * w.val = w.val; omega

theorem sl0_curry (x : Vec Ideal S8x17x128x128 .f32) : CstLoss.curry3 (sl0 (F := Ideal) x) = blk x 0 := by
  funext c h w; exact slice_read x 0 (by decide) _ c h w
theorem sl1_curry (x : Vec Ideal S8x17x128x128 .f32) : CstLoss.curry3 (sl1 (F := Ideal) x) = blk x 1 := by
  funext c h w; exact slice_read x 1 (by decide) _ c h w
theorem sl2_curry (x : Vec Ideal S8x17x128x128 .f32) : CstLoss.curry3 (sl2 (F := Ideal) x) = blk x 2 := by
  funext c h w; exact slice_read x 2 (by decide) _ c h w
theorem sl3_curry (x : Vec Ideal S8x17x128x128 .f32) : CstLoss.curry3 (sl3 (F := Ideal) x) = blk x 3 := by
  funext c h w; exact slice_read x 3 (by decide) _ c h w
theorem sl4_curry (x : Vec Ideal S8x17x128x128 .f32) : CstLoss.curry3 (sl4 (F := Ideal) x) = blk x 4 := by
  funext c h w; exact slice_read x 4 (by decide) _ c h w
theorem sl5_curry (x : Vec Ideal S8x17x128x128 .f32) : CstLoss.curry3 (sl5 (F := Ideal) x) = blk x 5 := by
  funext c h w; exact slice_read x 5 (by decide) _ c h w
theorem sl6_curry (x : Vec Ideal S8x17x128x128 .f32) : CstLoss.curry3 (sl6 (F := Ideal) x) = blk x 6 := by
  funext c h w; exact slice_read x 6 (by decide) _ c h w
theorem sl7_curry (x : Vec Ideal S8x17x128x128 .f32) : CstLoss.curry3 (sl7 (F := Ideal) x) = blk x 7 := by
  funext c h w; exact slice_read x 7 (by decide) _ c h w

/-- The word 0 the running sums start from is the real number 0. -/
theorem zero11_apply (i : S1x1.Idx) : zero11 (F := Ideal) i = 0 := Ideal.ofBits_zero_f32

/-- The block's matched-channel sum is the sum over its eight samples of the specification's term. -/
theorem blockPos_apply (hpos : ∀ (a b : FVec Ideal S17x128x128 .f32) (i : S1x1.Idx), samplePos (F := Ideal) a b i =
      CstLoss.posOf (fun c => CstLoss.nrm (CstLoss.meanLast (CstLoss.curry3 a) c))
        (fun c => CstLoss.nrm (CstLoss.meanLast (CstLoss.curry3 b) c))
        (fun c => CstLoss.nrm (CstLoss.meanMid (CstLoss.curry3 a) c))
        (fun c => CstLoss.nrm (CstLoss.meanMid (CstLoss.curry3 b) c)))
    (x0 x1 : Vec Ideal S8x17x128x128 .f32) (i : S1x1.Idx) :
    blockPos (F := Ideal) x0 x1 i =
      ∑ k : Fin 8, CstLoss.posOf (fun c => CstLoss.nrm (CstLoss.meanLast (blk x0 k) c))
        (fun c => CstLoss.nrm (CstLoss.meanLast (blk x1 k) c))
        (fun c => CstLoss.nrm (CstLoss.meanMid (blk x0 k) c))
        (fun c => CstLoss.nrm (CstLoss.meanMid (blk x1 k) c)) := by
  unfold blockPos
  simp only [addf_apply, zero11_apply, hpos, sl0_curry, sl1_curry, sl2_curry, sl3_curry, sl4_curry, sl5_curry, sl6_curry, sl7_curry, zero_add]
  rw [Fin.sum_univ_eight]

/-- The block's all-pairs sum is the sum over its eight samples of the specification's term. -/
theorem blockSim_apply (hsim : ∀ (a b : FVec Ideal S17x128x128 .f32) (i : S1x1.Idx), sampleSim (F := Ideal) a b i =
      CstLoss.simOf (fun c => CstLoss.nrm (CstLoss.meanLast (CstLoss.curry3 a) c))
        (fun c => CstLoss.nrm (CstLoss.meanLast (CstLoss.curry3 b) c))
        (fun c => CstLoss.nrm (CstLoss.meanMid (CstLoss.curry3 a) c))
        (fun c => CstLoss.nrm (CstLoss.meanMid (CstLoss.curry3 b) c)))
    (x0 x1 : Vec Ideal S8x17x128x128 .f32) (i : S1x1.Idx) :
    blockSim (F := Ideal) x0 x1 i =
      ∑ k : Fin 8, CstLoss.simOf (fun c => CstLoss.nrm (CstLoss.meanLast (blk x0 k) c))
        (fun c => CstLoss.nrm (CstLoss.meanLast (blk x1 k) c))
        (fun c => CstLoss.nrm (CstLoss.meanMid (blk x0 k) c))
        (fun c => CstLoss.nrm (CstLoss.meanMid (blk x1 k) c)) := by
  unfold blockSim
  simp only [addf_apply, zero11_apply, hsim, sl0_curry, sl1_curry, sl2_curry, sl3_curry, sl4_curry, sl5_curry, sl6_curry, sl7_curry, zero_add]
  rw [Fin.sum_univ_eight]

end Cert.KernelIdeal.Body

end
-- ==== Proof.KBlockIdx.lean ====
/-
  The staged blocks as parts of the argument arrays: at point t of the grid (row-major numbering) the two input
  windows hold samples 8t … 8t+7 of their arrays, so sample k of the staged block is sample 8t + k of the
  argument, coordinate by coordinate.
-/
import proofs.«102934_j90649579749529_2_alg».proof.Proof.Gen.KernelIdeal.Frame
import proofs.«102934_j90649579749529_2_alg».proof.Proof.KBlockRead
import proofs.«102934_j90649579749529_2_alg».proof.Proof.Spec

noncomputable section

namespace Cert.KernelIdeal.BlockIdx

open Cert.KernelIdeal Cert.KernelIdeal.Gen Idealize.ShloMosaic Idealize.ShloMosaic.ValueIdx Idealize.ShloMosaic.TcCoe

/-- The sample of the argument arrays that is sample `k` of the block staged at point `t`. -/
def sampleOf (t : Fin cfg0.N) (k : Fin 8) : Fin 64 :=
  ⟨8 * t.val + k.val, by have := t.isLt; have h8 : cfg0.N = 8 := N_0; have := k.isLt; omega⟩

/-- The block index of input window 0 at point t is (t, 0, 0, 0). -/
theorem index0 : ∀ t : Fin grid0.N,
    win0_0.index t 0 = t.val ∧ win0_0.index t 1 = 0 ∧ win0_0.index t 2 = 0 ∧ win0_0.index t 3 = 0 := by
  decide +kernel

/-- The block index of input window 1 at point t is (t, 0, 0, 0). -/
theorem index1 : ∀ t : Fin grid0.N,
    win0_1.index t 0 = t.val ∧ win0_1.index t 1 = 0 ∧ win0_1.index t 2 = 0 ∧ win0_1.index t 3 = 0 := by
  decide +kernel

theorem blk_iblk0 (m : (ℓ : Loc nD τ sig) → Buf (Elt Ideal) ℓ) (c : Dev nD) (t : Fin cfg0.N) (k : Fin 8) :
    Cert.KernelIdeal.Body.blk (iblk m c 0 t) k
      = CstLoss.curry4 (m ((c.tc : Thread nD τ).loc main_arg0)) (sampleOf t k) := by
  obtain ⟨h0, h1, h2, h3⟩ := index0 t
  funext ch h w
  unfold Cert.KernelIdeal.Body.blk CstLoss.curry4 iblk
  rw [View.read_apply]
  show V m c main_arg0 _ = m (c.tc.loc main_arg0) _
  unfold V
  congr 1
  funext a
  apply Fin.ext
  match a with
  | ⟨0, _⟩ => show win0_0.index t 0 * 8 + 1 * k.val = 8 * t.val + k.val; rw [h0]; omega
  | ⟨1, _⟩ => show win0_0.index t 1 * 17 + 1 * ch.val = ch.val; rw [h1]; omega
  | ⟨2, _⟩ => show win0_0.index t 2 * 128 + 1 * h.val = h.val; rw [h2]; omega
  | ⟨3, _⟩ => show win0_0.index t 3 * 128 + 1 * w.val = w.val; rw [h3]; omega

theorem blk_iblk1 (m : (ℓ : Loc nD τ sig) → Buf (Elt Ideal) ℓ) (c : Dev nD) (t : Fin cfg0.N) (k : Fin 8) :
    Cert.KernelIdeal.Body.blk (iblk m c 1 t) k
      = CstLoss.curry4 (m ((c.tc : Thread nD τ).loc main_arg1)) (sampleOf t k) := by
  obtain ⟨h0, h1, h2, h3⟩ := index1 t
  funext ch h w
  unfold Cert.KernelIdeal.Body.blk CstLoss.curry4 iblk
  rw [View.read_apply]
  show V m c main_arg1 _ = m (c.tc.loc main_arg1) _
  unfold V
  congr 1
  funext a
  apply Fin.ext
  match a with
  | ⟨0, _⟩ => show win0_1.index t 0 * 8 + 1 * k.val = 8 * t.val + k.val; rw [h0]; omega
  | ⟨1, _⟩ => show win0_1.index t 1 * 17 + 1 * ch.val = ch.val; rw [h1]; omega
  | ⟨2, _⟩ => show win0_1.index t 2 * 128 + 1 * h.val = h.val; rw [h2]; omega
  | ⟨3, _⟩ => show win0_1.index t 3 * 128 + 1 * w.val = w.val; rw [h3]; omega

end Cert.KernelIdeal.BlockIdx

end
-- ==== Proof.KTail.lean ====
import proofs.«102934_j90649579749529_2_alg».proof.Proof.Gen.KernelIdeal.Frame
import proofs.«102934_j90649579749529_2_alg».proof.Proof.Spec
import Idealize.ShloMosaic.Lib.StableHlo.Run
import Idealize.ShloMosaic.Lib.Pipeline.Value
import Idealize.ShloMosaic.Lib.ValueIdx
import Idealize.ShloMosaic.PureOps.Ideal.Laws

/-!
  The scalar epilogue of the kernel program.  After the grid has run, two [2,1,1] arrays hold one
  partial sum per core: the matched-channel total and the all-pairs total.  The fifteen host
  operations that follow add each array up from zero, divide the first total by 1088 and the second
  by 64, take the quotient of the two, then minus its logarithm, divided by 17 and by 64.  Here that
  composition is written once as a function of the two arrays, the program's result buffer is shown
  to hold exactly it, and over the extended reals it is read as the specification's epilogue applied
  to the two means, each total a sum over the two cores.
-/

noncomputable section

namespace Cert.KernelIdeal.Tail

open Idealize.ShloMosaic Idealize.ShloMosaic.TcCoe Idealize.SL.Sem
open Cert.KernelIdeal Cert.KernelIdeal.Gen

variable {F : FTy → Type} [FloatOps F]

/-- The host operations after the grid, composed: a function of the two per-core partial-sum arrays. -/
def hostTail (a2 a3 : (⟨S2x1x1, .f32⟩ : BufTy).Contents (Elt F)) : (⟨S_, .f32⟩ : BufTy).Contents (Elt F) :=
  Host.divf (Host.divf (Host.negf (Host.log (Host.divf
    (Host.divf (Host.reduceAdd a2 (constant S_ .f32 0x00000000#32) reducesTo_S2x1x1_S_d0_1_2 h_S_) (constant S_ .f32 0x44880000#32))
    (Host.divf (Host.reduceAdd a3 (constant S_ .f32 0x00000000#32) reducesTo_S2x1x1_S_d0_1_2 h_S_) (constant S_ .f32 0x42800000#32)))))
    (constant S_ .f32 0x41880000#32)) (constant S_ .f32 0x42800000#32)

/-- After the host operations the result buffer holds the composed epilogue of the two partial-sum arrays
    as the grid left them: each operation's result is read at its own buffer, and the two arrays are the
    third and fourth windows' arrays. -/
theorem tail_eq (m : (ℓ : Loc nD τ sig) → Buf (Elt F) ℓ) (c : Dev nD) :
    Pipeline.afterTail₀ cfgs (dats m) 0 (V0 m) [hostOps1] c main_v9
      = hostTail ((dats m 0 c).arrAt 2 cfg0.N) ((dats m 0 c).arrAt 3 cfg0.N) := by
  unfold Pipeline.afterTail₀
  show StableHlo.after hostOps1 _ (Proc.devRef .tc main_v9) = _
  after_results
  exact congrArg₂ hostTail
    (Pipeline.withArrays_arr spec0 launch0.win.arr_inj c (V0 m c) (fun w => (dats m 0 c).arrAt w (cfgs 0).N) 2)
    (Pipeline.withArrays_arr spec0 launch0.win.arr_inj c (V0 m c) (fun w => (dats m 0 c).arrAt w (cfgs 0).N) 3)

/-- The result buffer is unscoped and is no window's array. -/
theorem mem_rest_v9 : main_v9 ∈ Pipeline.restRefs sig (cfgs 0).spec :=
  Pipeline.mem_restRefs_of main_v9 (by decide) (fun w => by fin_cases w <;> decide)

/-- A [2,1,1] array summed over all its indices is the sum over the two cores: the other two
    coordinates range over one value each. -/
theorem sum_cores (a : (⟨3, ![2, 1, 1]⟩ : Shape).Idx → EReal) :
    ∑ j : (⟨3, ![2, 1, 1]⟩ : Shape).Idx, a j = ∑ core : Fin 2, a (ValueIdx.ix3 core (0 : Fin 1) (0 : Fin 1)) := by
  refine Fintype.sum_equiv
    { toFun := fun j => (j 0 : Fin 2)
      invFun := fun core => ValueIdx.ix3 core (0 : Fin 1) (0 : Fin 1)
      left_inv := fun j => ?_
      right_inv := fun _ => rfl } _ _ (fun j => ?_)
  · refine (congrArg₂ (ValueIdx.ix3 (j 0 : Fin 2)) (@Subsingleton.elim (Fin 1) _ 0 (j 1)) (@Subsingleton.elim (Fin 1) _ 0 (j 2))).trans (ValueIdx.eq_ix3 j).symm
  · exact congrArg a ((ValueIdx.eq_ix3 j).trans (congrArg₂ (ValueIdx.ix3 (j 0 : Fin 2)) (@Subsingleton.elim (Fin 1) _ (j 1) 0) (@Subsingleton.elim (Fin 1) _ (j 2) 0)))

/-- Over the extended reals the epilogue is the specification's, applied to the two means; each
    total is zero plus the sum of the two cores' partial sums. -/
theorem hostTail_apply (a2 a3 : (⟨S2x1x1, .f32⟩ : BufTy).Contents (Elt Ideal)) (i : S_.Idx) :
    hostTail (F := Ideal) a2 a3 i
      = CstLoss.tail (Ideal.div (CstLoss.k0 + ∑ core : Fin 2, a2 (Idealize.ShloMosaic.ValueIdx.ix3 core (0 : Fin 1) (0 : Fin 1))) CstLoss.k1088)
          (Ideal.div (CstLoss.k0 + ∑ core : Fin 2, a3 (Idealize.ShloMosaic.ValueIdx.ix3 core (0 : Fin 1) (0 : Fin 1))) CstLoss.k64) := by
  have hs : ∀ b, S_.size b = 1 := fun b => b.elim0
  have e2 : Ideal.hostReduceAdd reducesTo_S2x1x1_S_d0_1_2 a2 CstLoss.k0 i
      = CstLoss.k0 + ∑ core : Fin 2, a2 (ValueIdx.ix3 core (0 : Fin 1) (0 : Fin 1)) :=
    (Ideal.hostReduceAdd_total reducesTo_S2x1x1_S_d0_1_2 hs a2 CstLoss.k0 i).trans (congrArg (CstLoss.k0 + ·) (sum_cores a2))
  have e3 : Ideal.hostReduceAdd reducesTo_S2x1x1_S_d0_1_2 a3 CstLoss.k0 i
      = CstLoss.k0 + ∑ core : Fin 2, a3 (ValueIdx.ix3 core (0 : Fin 1) (0 : Fin 1)) :=
    (Ideal.hostReduceAdd_total reducesTo_S2x1x1_S_d0_1_2 hs a3 CstLoss.k0 i).trans (congrArg (CstLoss.k0 + ·) (sum_cores a3))
  rw [← e2, ← e3]
  rfl

end Cert.KernelIdeal.Tail

end
-- ==== Proof.AlgConsts.lean ====
/-
  The float words of the specification, evaluated once as extended reals.
-/
import proofs.«102934_j90649579749529_2_alg».proof.Proof.Spec

noncomputable section

namespace CstLoss

open Idealize.ShloMosaic

/-- The word of +0.0 is zero. -/
theorem k0_eq : k0 = 0 := by
  simp [k0, Ideal.ofBits, Ideal.ieee]

/-- The word 0x43000000 is the real 128. -/
theorem k128_eq : k128 = ((128 : ℝ) : EReal) := by
  simp [k128, Ideal.ofBits, Ideal.ieee, -EReal.coe_mul]; norm_num

/-- The word 0x42800000 is the real 64. -/
theorem k64_eq : k64 = ((64 : ℝ) : EReal) := by
  simp [k64, Ideal.ofBits, Ideal.ieee, -EReal.coe_mul]; norm_num

/-- The word 0x3F000000 is the real one half. -/
theorem khalf_eq : khalf = (((1 : ℝ) / 2 : ℝ) : EReal) := by
  simp [khalf, Ideal.ofBits, Ideal.ieee, -EReal.coe_mul]; norm_num

/-- The all-ones-exponent negative word is minus infinity. -/
theorem kninf_eq : kninf = ⊥ := by
  simp [kninf, Ideal.ofBits, Ideal.ieee]

/-- The clamp constant is a positive real. -/
theorem keps_pos : ∃ e : ℝ, 0 < e ∧ keps = (e : EReal) := by
  refine ⟨(11258999 : ℝ) * (2 : ℝ) ^ (-50 : Int), by positivity, ?_⟩
  simp [keps, Ideal.ofBits, Ideal.ieee, -EReal.coe_mul]

end CstLoss

end
-- ==== Proof.AlgReal.lean ====
/-
  General facts about real numbers inside the extended reals: finite sums, products, maxima, square roots
  and quotients of real-valued terms are real-valued, with the value written out.
-/
import proofs.«102934_j90649579749529_2_alg».proof.Proof.AlgConsts

noncomputable section

namespace CstLoss

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The coercion of reals commutes with the maximum of two. -/
theorem coe_max_eq (x y : ℝ) : max (x : EReal) (y : EReal) = ((max x y : ℝ) : EReal) :=
  (EReal.coe_strictMono.monotone.map_max).symm

/-- The maximum of a non-empty finite family of reals, folded from minus infinity, is a real. -/
theorem fold_max_real {ι : Type*} (v : ι → ℝ) (s : Finset ι) (hs : s.Nonempty) :
    ∃ r : ℝ, s.fold max (⊥ : EReal) (fun i => ((v i : ℝ) : EReal)) = (r : EReal) := by
  classical
  induction s using Finset.induction_on with
  | empty => exact absurd hs Finset.not_nonempty_empty
  | insert a t ha ih =>
    rw [Finset.fold_insert ha]
    rcases t.eq_empty_or_nonempty with h | h
    · subst h
      exact ⟨v a, by simp⟩
    · obtain ⟨r, hr⟩ := ih h
      exact ⟨max (v a) r, by rw [hr, coe_max_eq]⟩

/-- Dividing a real by a non-zero real gives the real quotient. -/
theorem div_coe_coe (x y : ℝ) (hy : y ≠ 0) :
    Ideal.div (x : EReal) (y : EReal) = ((x * (1 / y) : ℝ) : EReal) := by
  rw [Ideal.div_coe hy, EReal.coe_mul]

/-- The square root of a non-negative real is the real square root. -/
theorem sqrt_coe_nonneg (r : ℝ) (hr : 0 ≤ r) : Ideal.sqrt (r : EReal) = ((Real.sqrt r : ℝ) : EReal) := by
  rw [Ideal.sqrt_coe, if_neg (not_lt.mpr hr)]

end CstLoss

end
-- ==== Proof.AlgNorm.lean ====
/-
  The normalised marginals of a real-valued array are real-valued: the mean of a row of reals is a real,
  the maximum of a row is one of its entries, the exponentials are positive reals so the softmax
  denominator is a positive real, the sum of squares is a non-negative real, and the clamped norm is a
  real bounded below by a positive constant.
-/
import proofs.«102934_j90649579749529_2_alg».proof.Proof.AlgReal

noncomputable section

namespace CstLoss

open Idealize.ShloMosaic

/-- Dividing a real by the word of 128 multiplies it by 1/128. -/
theorem div_k128 (x : ℝ) : Ideal.div (x : EReal) k128 = ((x * (1 / 128) : ℝ) : EReal) := by
  rw [k128_eq, div_coe_coe x 128 (by norm_num)]

/-- Dividing a real by the word of 64 multiplies it by 1/64. -/
theorem div_k64 (x : ℝ) : Ideal.div (x : EReal) k64 = ((x * (1 / 64) : ℝ) : EReal) := by
  rw [k64_eq, div_coe_coe x 64 (by norm_num)]

/-- The maximum of a row of reals is a real. -/
theorem rmax_real (v : Fin 128 → ℝ) : ∃ m : ℝ, rmax (fun s => ((v s : ℝ) : EReal)) = (m : EReal) := by
  rw [rmax, kninf_eq]
  exact fold_max_real v Finset.univ Finset.univ_nonempty

/-- The shifted softmax of a row of reals is a row of reals. -/
theorem smax_real (v : Fin 128 → ℝ) :
    ∃ q : Fin 128 → ℝ, ∀ s, smax (fun s => ((v s : ℝ) : EReal)) s = (q s : EReal) := by
  obtain ⟨m, hm⟩ := rmax_real v
  refine ⟨fun s => Real.exp (v s - m) * (1 / ∑ t, Real.exp (v t - m)), fun s => ?_⟩
  have hterm : ∀ t : Fin 128, Ideal.exp (((v t : ℝ) : EReal) - rmax (fun s => ((v s : ℝ) : EReal)))
      = ((Real.exp (v t - m) : ℝ) : EReal) := by
    intro t
    rw [hm, ← EReal.coe_sub, Ideal.exp_coe]
  have hden : (∑ t : Fin 128, Ideal.exp (((v t : ℝ) : EReal) - rmax (fun s => ((v s : ℝ) : EReal))))
      = ((∑ t, Real.exp (v t - m) : ℝ) : EReal) := by
    rw [← coe_sum]
    exact Finset.sum_congr rfl fun t _ => hterm t
  have hpos : (∑ t : Fin 128, Real.exp (v t - m)) ≠ 0 :=
    (Finset.sum_pos (fun t _ => Real.exp_pos _) Finset.univ_nonempty).ne'
  simp only [smax]
  rw [hden, hterm s, div_coe_coe _ _ hpos]

/-- A row of reals divided by its clamped Euclidean norm is a row of reals. -/
theorem l2n_real (q : Fin 128 → ℝ) :
    ∃ p : Fin 128 → ℝ, ∀ s, l2n (fun s => ((q s : ℝ) : EReal)) s = (p s : EReal) := by
  obtain ⟨e, he, hke⟩ := keps_pos
  refine ⟨fun s => q s * (1 / max (Real.sqrt (∑ t, q t * q t)) e), fun s => ?_⟩
  have hsum : (∑ t : Fin 128, ((q t : ℝ) : EReal) * ((q t : ℝ) : EReal))
      = ((∑ t, q t * q t : ℝ) : EReal) := by
    rw [← coe_sum]
    exact Finset.sum_congr rfl fun t _ => (EReal.coe_mul _ _).symm
  have hnn : 0 ≤ ∑ t : Fin 128, q t * q t := Finset.sum_nonneg fun t _ => mul_self_nonneg _
  have hne : max (Real.sqrt (∑ t, q t * q t)) e ≠ 0 := (lt_of_lt_of_le he (le_max_right _ _)).ne'
  simp only [l2n]
  rw [hsum, sqrt_coe_nonneg _ hnn, hke, coe_max_eq, div_coe_coe _ _ hne]

/-- Softmax then normalisation of a real-valued row is real-valued. -/
theorem nrm_real (u : Fin 128 → EReal) (hu : ∀ s, ∃ r : ℝ, u s = (r : EReal)) :
    ∃ p : Fin 128 → ℝ, ∀ s, nrm u s = (p s : EReal) := by
  choose v hv using hu
  have hu' : u = fun s => ((v s : ℝ) : EReal) := funext hv
  obtain ⟨q, hq⟩ := smax_real v
  have hs : smax u = fun s => ((q s : ℝ) : EReal) := by rw [hu']; exact funext hq
  obtain ⟨p, hp⟩ := l2n_real q
  exact ⟨p, fun s => by rw [nrm, hs]; exact hp s⟩

/-- The mean over the last axis of a real-valued sample is real-valued. -/
theorem meanLast_real (a : Fin 17 → Fin 128 → Fin 128 → EReal)
    (ha : ∀ c h w, ∃ r : ℝ, a c h w = (r : EReal)) (c : Fin 17) (h : Fin 128) :
    ∃ r : ℝ, meanLast a c h = (r : EReal) := by
  choose x hx using ha
  refine ⟨(∑ w, x c h w) * (1 / 128), ?_⟩
  have hsum : (∑ w : Fin 128, a c h w) = ((∑ w, x c h w : ℝ) : EReal) := by
    rw [← coe_sum]
    exact Finset.sum_congr rfl fun w _ => hx c h w
  rw [meanLast, hsum, div_k128]

/-- The mean over the middle axis of a real-valued sample is real-valued. -/
theorem meanMid_real (a : Fin 17 → Fin 128 → Fin 128 → EReal)
    (ha : ∀ c h w, ∃ r : ℝ, a c h w = (r : EReal)) (c : Fin 17) (w : Fin 128) :
    ∃ r : ℝ, meanMid a c w = (r : EReal) := by
  choose x hx using ha
  refine ⟨(∑ h, x c h w) * (1 / 128), ?_⟩
  have hsum : (∑ h : Fin 128, a c h w) = ((∑ h, x c h w : ℝ) : EReal) := by
    rw [← coe_sum]
    exact Finset.sum_congr rfl fun h _ => hx c h w
  rw [meanMid, hsum, div_k128]

/-- The normalised row marginals of a real-valued array are real-valued. -/
theorem nRow_real (X : Arr) (hX : ∀ n c h w, ∃ r : ℝ, X n c h w = (r : EReal)) (n : Fin 64) (c : Fin 17) :
    ∃ p : Fin 128 → ℝ, ∀ s, nRow X n c s = (p s : EReal) :=
  nrm_real _ (fun h => meanLast_real (X n) (hX n) c h)

/-- The normalised column marginals of a real-valued array are real-valued. -/
theorem nCol_real (X : Arr) (hX : ∀ n c h w, ∃ r : ℝ, X n c h w = (r : EReal)) (n : Fin 64) (c : Fin 17) :
    ∃ p : Fin 128 → ℝ, ∀ s, nCol X n c s = (p s : EReal) :=
  nrm_real _ (fun w => meanMid_real (X n) (hX n) c w)

end CstLoss

end
-- ==== Proof.AlgSums.lean ====
/-
  Two rearrangements of finite sums.  Summing over (core, step, sample-in-block) visits every one of the
  64 samples once; and the all-pairs term, summed over samples, is the double sum over channel pairs of
  the per-pair sums (the product of two sums is the double sum of the products, and finite sums commute).
-/
import proofs.«102934_j90649579749529_2_alg».proof.Proof.Spec

noncomputable section

namespace CstLoss

open Idealize.ShloMosaic

/-- The three nested sums over core, step and position in the block are one sum over the 64 samples. -/
theorem sum_sampleIdx {M : Type*} [AddCommMonoid M] (f : Fin 64 → M) :
    (∑ core : Fin 2, ∑ j : Fin 4, ∑ i : Fin 8, f (sampleIdx core j i)) = ∑ n : Fin 64, f n := by
  let e : (Fin 2 × Fin 4) × Fin 8 ≃ Fin 64 :=
    (Equiv.prodCongr finProdFinEquiv (Equiv.refl (Fin 8))).trans finProdFinEquiv
  rw [← Equiv.sum_comp e f, Fintype.sum_prod_type, Fintype.sum_prod_type]
  refine Finset.sum_congr rfl fun core _ => Finset.sum_congr rfl fun j _ =>
    Finset.sum_congr rfl fun i _ => ?_
  congr 1
  apply Fin.ext
  show (core.val * 4 + j.val) * 8 + i.val = i.val + 8 * (j.val + 4 * core.val)
  ring

section Real

variable {ι σ ν : Type*} [Fintype ι] [Fintype σ] [Fintype ν]

/-- The inner product of two sums of rows is the double sum of the inner products of the rows. -/
theorem pair_sum (a b : ι → σ → ℝ) :
    (∑ i, ∑ j, ∑ s, a i s * b j s) = ∑ s, (∑ i, a i s) * (∑ j, b j s) := by
  have h1 : (∑ i, ∑ j, ∑ s, a i s * b j s) = ∑ i, ∑ s, ∑ j, a i s * b j s :=
    Finset.sum_congr rfl fun i _ => Finset.sum_comm
  rw [h1, Finset.sum_comm]
  refine Finset.sum_congr rfl fun s _ => ?_
  rw [Finset.sum_mul_sum]

/-- The all-pairs term: sums over channels first, then over samples, against the double sum over
    channel pairs of the sums over samples. -/
theorem allpairs_real (a b c d : ν → ι → σ → ℝ) (h k : ℝ) :
    (∑ n, ((∑ s, (∑ i, a n i s) * (∑ j, b n j s)) + (∑ s, (∑ i, c n i s) * (∑ j, d n j s))) * h) * k
      = ∑ i, ∑ j, (∑ n, ((∑ s, a n i s * b n j s) + (∑ s, c n i s * d n j s)) * h) * k := by
  have hR : (∑ i, ∑ j, (∑ n, ((∑ s, a n i s * b n j s) + (∑ s, c n i s * d n j s)) * h) * k)
      = ∑ n, ∑ i, ∑ j, ((∑ s, a n i s * b n j s) + (∑ s, c n i s * d n j s)) * h * k := by
    have h1 : (∑ i, ∑ j, (∑ n, ((∑ s, a n i s * b n j s) + (∑ s, c n i s * d n j s)) * h) * k)
        = ∑ i, ∑ n, ∑ j, ((∑ s, a n i s * b n j s) + (∑ s, c n i s * d n j s)) * h * k := by
      refine Finset.sum_congr rfl fun i _ => ?_
      rw [Finset.sum_comm]
      refine Finset.sum_congr rfl fun j _ => ?_
      rw [Finset.sum_mul]
    rw [h1, Finset.sum_comm]
  rw [hR, Finset.sum_mul]
  refine Finset.sum_congr rfl fun n _ => ?_
  rw [← pair_sum (a n) (b n), ← pair_sum (c n) (d n)]
  simp only [add_mul, Finset.sum_add_distrib, Finset.sum_mul]

end Real

end CstLoss

end
-- ==== Proof.Algebra.lean ====
/-
  The two forms of the loss agree on real-valued inputs.  The matched-channel sums are the same sum taken
  in two orders of the samples.  For the all-pairs sums the normalised marginals are real-valued, so both
  sides are coerced real expressions, and the identity is the real one: the inner product of the sums over
  channels is the double sum over channel pairs of the inner products, summed over samples in either order.
-/
import proofs.«102934_j90649579749529_2_alg».proof.Proof.AlgNorm
import proofs.«102934_j90649579749529_2_alg».proof.Proof.AlgSums

noncomputable section

namespace CstLoss

open Idealize.ShloMosaic

/-- The all-pairs arguments of the two forms agree once the marginals are given as real arrays. -/
theorem allpairs_eq (X Y : Arr) (a b c d : Fin 64 → Fin 17 → Fin 128 → ℝ)
    (ha : ∀ n i s, nRow X n i s = ((a n i s : ℝ) : EReal))
    (hb : ∀ n i s, nRow Y n i s = ((b n i s : ℝ) : EReal))
    (hc : ∀ n i s, nCol X n i s = ((c n i s : ℝ) : EReal))
    (hd : ∀ n i s, nCol Y n i s = ((d n i s : ℝ) : EReal)) :
    Ideal.div (k0 + ∑ n : Fin 64, sim X Y n) k64
      = k0 + ∑ i : Fin 17, ∑ j : Fin 17, Ideal.div (k0 + ∑ n : Fin 64,
          ((∑ s : Fin 128, nRow X n i s * nRow Y n j s) + (∑ s : Fin 128, nCol X n i s * nCol Y n j s)) * khalf) k64 := by
  have hL : Ideal.div (k0 + ∑ n : Fin 64, sim X Y n) k64
      = (((∑ n, ((∑ s, (∑ i, a n i s) * (∑ j, b n j s)) + (∑ s, (∑ i, c n i s) * (∑ j, d n j s))) * (1 / 2))
          * (1 / 64) : ℝ) : EReal) := by
    simp only [sim, simOf, ha, hb, hc, hd, khalf_eq, k0_eq, zero_add, coe_sum, ← EReal.coe_mul,
      ← EReal.coe_add, div_k64]
  have hR : (k0 + ∑ i : Fin 17, ∑ j : Fin 17, Ideal.div (k0 + ∑ n : Fin 64,
        ((∑ s : Fin 128, nRow X n i s * nRow Y n j s) + (∑ s : Fin 128, nCol X n i s * nCol Y n j s)) * khalf) k64)
      = ((∑ i, ∑ j, (∑ n, ((∑ s, a n i s * b n j s) + (∑ s, c n i s * d n j s)) * (1 / 2)) * (1 / 64) : ℝ) : EReal) := by
    simp only [ha, hb, hc, hd, khalf_eq, k0_eq, zero_add, coe_sum, ← EReal.coe_mul,
      ← EReal.coe_add, div_k64]
  rw [hL, hR, allpairs_real a b c d (1 / 2) (1 / 64)]

/-- The kernel's order of accumulation and the reference's arrangement give the same loss. -/
theorem kern_eq_ref (X Y : Arr) (hX : ∀ n c h w, ∃ r : ℝ, X n c h w = (r : EReal))
    (hY : ∀ n c h w, ∃ r : ℝ, Y n c h w = (r : EReal)) : kernRes X Y = refRes X Y := by
  choose a ha using fun n c => nRow_real X hX n c
  choose b hb using fun n c => nRow_real Y hY n c
  choose c hc using fun n c => nCol_real X hX n c
  choose d hd using fun n c => nCol_real Y hY n c
  unfold kernRes refRes
  rw [sum_sampleIdx (pos X Y), sum_sampleIdx (sim X Y), allpairs_eq X Y a b c d ha hb hc hd]
  rfl

end CstLoss

end
-- ==== Proof.KValue.lean ====
import proofs.«102934_j90649579749529_2_alg».proof.Proof.KFinal
import proofs.«102934_j90649579749529_2_alg».proof.Proof.KSampleRead
import proofs.«102934_j90649579749529_2_alg».proof.Proof.KBlockRead
import proofs.«102934_j90649579749529_2_alg».proof.Proof.KBlockIdx
import proofs.«102934_j90649579749529_2_alg».proof.Proof.KTail
import proofs.«102934_j90649579749529_2_alg».proof.Proof.Algebra
import Idealize.ShloMosaic.Lib.ValueLayout

/-!
  The kernel's two result arrays and its result, over the extended reals.  A point of the grid adds
  to a one-element block the sum of the per-sample terms of the eight samples it stages; a core's
  four points therefore leave in its entry of a result array the sum of its thirty-two samples'
  terms, and the scalar epilogue applied to the two arrays is the loss in the order core, step,
  sample-in-block.
-/

noncomputable section

open Idealize.ShloMosaic Idealize.ShloMosaic.TcCoe Idealize.SL.Sem Idealize.ShloMosaic.ValueIdx

namespace Cert.KernelIdeal.BodyRun

open Cert.KernelIdeal Cert.KernelIdeal.Gen Cert.KernelIdeal.Body

/-- Adding a [1,1] sum to a one-element block, read at the block's one index. -/
theorem stepB_apply (xo : Vec Ideal S1x1x1 .f32) (b : FVec Ideal S1x1 .f32) :
    stepB xo b j0 = xo j0 + b (ix2 (0 : Fin 1) (0 : Fin 1)) := by
  have e1 : shapeCast S1x1x1 xo shapeCasts_S1x1x1_S1x1x1 = xo := shapeCast_self xo _
  have e2 : shapeCast S1x1x1 b shapeCasts_S1x1_S1x1x1 j0 = b (ix2 (0 : Fin 1) (0 : Fin 1)) :=
    shapeCast_ab_1ab_apply b _ (0 : Fin 1) (0 : Fin 1) (0 : Fin 1)
  show shapeCast S1x1x1 xo shapeCasts_S1x1x1_S1x1x1 j0 + shapeCast S1x1x1 b shapeCasts_S1x1_S1x1x1 j0 = _
  rw [e1, e2]

/-- A core's first point leaves the [1,1] sum itself: the block was reset to the word 0, the real zero. -/
theorem stepA_apply (b : FVec Ideal S1x1 .f32) : stepA b j0 = b (ix2 (0 : Fin 1) (0 : Fin 1)) := by
  have hz : zero111 (F := Ideal) j0 = 0 := Ideal.ofBits_zero_f32
  unfold stepA
  rw [stepB_apply, hz, zero_add]

variable (m : (ℓ : Loc nD τ sig) → Buf (Elt Ideal) ℓ) (c : Dev nD)

/-- The matched-channel sum a point stages is the sum of the specification's term over its eight samples. -/
theorem bp_apply (t : Fin cfg0.N) (i : S1x1.Idx) :
    bp m c t i = ∑ k : Fin 8, CstLoss.pos (CstLoss.curry4 (m ((c.tc : Thread nD τ).loc main_arg0))) (CstLoss.curry4 (m ((c.tc : Thread nD τ).loc main_arg1))) (BlockIdx.sampleOf t k) := by
  unfold bp
  rw [Body.blockPos_apply Body.samplePos_apply]
  refine Finset.sum_congr rfl fun k _ => ?_
  rw [BlockIdx.blk_iblk0, BlockIdx.blk_iblk1]
  rfl

/-- The all-pairs sum a point stages, likewise. -/
theorem bs_apply (t : Fin cfg0.N) (i : S1x1.Idx) :
    bs m c t i = ∑ k : Fin 8, CstLoss.sim (CstLoss.curry4 (m ((c.tc : Thread nD τ).loc main_arg0))) (CstLoss.curry4 (m ((c.tc : Thread nD τ).loc main_arg1))) (BlockIdx.sampleOf t k) := by
  unfold bs
  rw [Body.blockSim_apply Body.sampleSim_apply]
  refine Finset.sum_congr rfl fun k _ => ?_
  rw [BlockIdx.blk_iblk0, BlockIdx.blk_iblk1]
  rfl

/-- At a point whose number is a multiple of four (a core's first) the chain restarts. -/
theorem chain_first (n : ℕ) (h : n < cfg0.N) (h0 : n % 4 = 0) :
    chain m c n h = (stepA (bp m c ⟨n, h⟩), stepA (bs m c ⟨n, h⟩)) := by
  cases n with
  | zero => rfl
  | succ n => unfold chain; rw [if_pos h0]

/-- At any other point the chain adds the point's sums to what the point before left. -/
theorem chain_next (n : ℕ) (h : n + 1 < cfg0.N) (h0 : ¬(n + 1) % 4 = 0) :
    chain m c (n + 1) h = (stepB (chain m c n (Nat.lt_of_succ_lt h)).1 (bp m c ⟨n + 1, h⟩),
      stepB (chain m c n (Nat.lt_of_succ_lt h)).2 (bs m c ⟨n + 1, h⟩)) := by
  conv_lhs => unfold chain
  rw [if_neg h0]

/-- Sample k of the block staged at the core's step j is the sample the specification numbers (core, j, k). -/
theorem sampleOf_eq (core : Fin 2) (j : Fin 4) (k : Fin 8) (h : 4 * core.val + j.val < cfg0.N) :
    BlockIdx.sampleOf ⟨4 * core.val + j.val, h⟩ k = CstLoss.sampleIdx core j k :=
  Fin.ext (by
    show 8 * (4 * core.val + j.val) + k.val = (core.val * 4 + j.val) * 8 + k.val
    omega)

/-- After a core's fourth point the two blocks hold the four points' sums, added in order. -/
theorem chain_last (core : Fin 2) (h0 : 4 * core.val < cfg0.N) (h1 : 4 * core.val + 1 < cfg0.N)
    (h2 : 4 * core.val + 2 < cfg0.N) (h3 : 4 * core.val + 3 < cfg0.N) :
    (chain m c (4 * core.val + 3) h3).1 j0
        = bp m c ⟨4 * core.val, h0⟩ (ix2 (0 : Fin 1) (0 : Fin 1)) + bp m c ⟨4 * core.val + 1, h1⟩ (ix2 (0 : Fin 1) (0 : Fin 1))
          + bp m c ⟨4 * core.val + 2, h2⟩ (ix2 (0 : Fin 1) (0 : Fin 1)) + bp m c ⟨4 * core.val + 3, h3⟩ (ix2 (0 : Fin 1) (0 : Fin 1))
    ∧ (chain m c (4 * core.val + 3) h3).2 j0
        = bs m c ⟨4 * core.val, h0⟩ (ix2 (0 : Fin 1) (0 : Fin 1)) + bs m c ⟨4 * core.val + 1, h1⟩ (ix2 (0 : Fin 1) (0 : Fin 1))
          + bs m c ⟨4 * core.val + 2, h2⟩ (ix2 (0 : Fin 1) (0 : Fin 1)) + bs m c ⟨4 * core.val + 3, h3⟩ (ix2 (0 : Fin 1) (0 : Fin 1)) := by
  have e3 := chain_next m c (4 * core.val + 2) h3 (by omega)
  have e2 := chain_next m c (4 * core.val + 1) h2 (by omega)
  have e1 := chain_next m c (4 * core.val) h1 (by omega)
  have e0 := chain_first m c (4 * core.val) h0 (by omega)
  rw [e3]
  dsimp only
  rw [stepB_apply, stepB_apply, e2]
  dsimp only
  rw [stepB_apply, stepB_apply, e1]
  dsimp only
  rw [stepB_apply, stepB_apply, e0]
  dsimp only
  rw [stepA_apply, stepA_apply]
  exact ⟨rfl, rfl⟩

/-- Entry (core, 0, 0) of the first result array: the matched-channel terms of the core's samples. -/
theorem G2_apply (core : Fin 2) :
    G2 m c (ix3 core (0 : Fin 1) (0 : Fin 1))
      = ∑ j : Fin 4, ∑ i : Fin 8, CstLoss.pos (CstLoss.curry4 (m ((c.tc : Thread nD τ).loc main_arg0))) (CstLoss.curry4 (m ((c.tc : Thread nD τ).loc main_arg1))) (CstLoss.sampleIdx core j i) := by
  have hN : cfg0.N = 8 := N_0
  have hc : core.val < 2 := core.isLt
  have h0 : 4 * core.val < cfg0.N := by omega
  have h1 : 4 * core.val + 1 < cfg0.N := by omega
  have h2 : 4 * core.val + 2 < cfg0.N := by omega
  have h3 : 4 * core.val + 3 < cfg0.N := by omega
  have hs : ∀ (j : Fin 4) (h : 4 * core.val + j.val < cfg0.N),
      bp m c ⟨4 * core.val + j.val, h⟩ (ix2 (0 : Fin 1) (0 : Fin 1))
        = ∑ i : Fin 8, CstLoss.pos (CstLoss.curry4 (m ((c.tc : Thread nD τ).loc main_arg0))) (CstLoss.curry4 (m ((c.tc : Thread nD τ).loc main_arg1))) (CstLoss.sampleIdx core j i) := fun j h =>
    (bp_apply m c _ _).trans (Finset.sum_congr rfl fun k _ => congrArg (CstLoss.pos (CstLoss.curry4 (m ((c.tc : Thread nD τ).loc main_arg0))) (CstLoss.curry4 (m ((c.tc : Thread nD τ).loc main_arg1)))) (sampleOf_eq core j k h))
  rw [Fin.sum_univ_four]
  exact (chain_last m c core h0 h1 h2 h3).1.trans
    (congrArg₂ (· + ·) (congrArg₂ (· + ·) (congrArg₂ (· + ·) (hs 0 h0) (hs 1 h1)) (hs 2 h2)) (hs 3 h3))

/-- Entry (core, 0, 0) of the second result array: the all-pairs terms of the core's samples. -/
theorem G3_apply (core : Fin 2) :
    G3 m c (ix3 core (0 : Fin 1) (0 : Fin 1))
      = ∑ j : Fin 4, ∑ i : Fin 8, CstLoss.sim (CstLoss.curry4 (m ((c.tc : Thread nD τ).loc main_arg0))) (CstLoss.curry4 (m ((c.tc : Thread nD τ).loc main_arg1))) (CstLoss.sampleIdx core j i) := by
  have hN : cfg0.N = 8 := N_0
  have hc : core.val < 2 := core.isLt
  have h0 : 4 * core.val < cfg0.N := by omega
  have h1 : 4 * core.val + 1 < cfg0.N := by omega
  have h2 : 4 * core.val + 2 < cfg0.N := by omega
  have h3 : 4 * core.val + 3 < cfg0.N := by omega
  have hs : ∀ (j : Fin 4) (h : 4 * core.val + j.val < cfg0.N),
      bs m c ⟨4 * core.val + j.val, h⟩ (ix2 (0 : Fin 1) (0 : Fin 1))
        = ∑ i : Fin 8, CstLoss.sim (CstLoss.curry4 (m ((c.tc : Thread nD τ).loc main_arg0))) (CstLoss.curry4 (m ((c.tc : Thread nD τ).loc main_arg1))) (CstLoss.sampleIdx core j i) := fun j h =>
    (bs_apply m c _ _).trans (Finset.sum_congr rfl fun k _ => congrArg (CstLoss.sim (CstLoss.curry4 (m ((c.tc : Thread nD τ).loc main_arg0))) (CstLoss.curry4 (m ((c.tc : Thread nD τ).loc main_arg1)))) (sampleOf_eq core j k h))
  rw [Fin.sum_univ_four]
  exact (chain_last m c core h0 h1 h2 h3).2.trans
    (congrArg₂ (· + ·) (congrArg₂ (· + ·) (congrArg₂ (· + ·) (hs 0 h0) (hs 1 h1)) (hs 2 h2)) (hs 3 h3))

/-- The scalar epilogue of the two result arrays is the loss as the kernel accumulates it. -/
theorem kernel_value :
    Tail.hostTail (F := Ideal) (G2 m c) (G3 m c) = fun _ => CstLoss.kernRes (CstLoss.curry4 (m ((c.tc : Thread nD τ).loc main_arg0))) (CstLoss.curry4 (m ((c.tc : Thread nD τ).loc main_arg1))) := by
  funext i
  rw [Tail.hostTail_apply]
  unfold CstLoss.kernRes
  simp only [G2_apply, G3_apply]

end Cert.KernelIdeal.BodyRun
end
-- ==== Proof.KRun.lean ====
/-
  The kernel's run, read: every weakly fair execution ends with the scalar result at the loss in the kernel's
  order of summation (`CstLoss.kernRes` of the two argument arrays) and the arguments unchanged. The region's two
  result arrays are the per-core running sums (the chain after each core's last point); the host operations after
  the region sum the two cores and apply the scalar epilogue.
-/
import proofs.«102934_j90649579749529_2_alg».proof.Proof.KValue

noncomputable section

open Idealize.ShloMosaic Idealize.ShloMosaic.TcCoe Idealize.SL.Sem
open Idealize.ShloMosaic.Pipeline (Dat)

namespace Cert.KernelIdeal.BodyRun

open Cert.KernelIdeal Cert.KernelIdeal.Gen

/-- The result buffer after the run is the constant function at the loss. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
          = (fun _ => CstLoss.kernRes (CstLoss.curry4 (m ((c.tc : Thread nD τ).loc main_arg0)))
              (CstLoss.curry4 (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v9 Tail.mem_rest_v9).trans ((Tail.tail_eq m c).trans (by
        rw [final2 m c, final3 m c]; exact kernel_value m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.BodyRun
end
-- ==== Proof.RefStagesLib.lean ====
/-
  Two facts about the extended reals used by every marginal: the maximum with -∞ is the other argument, and a
  reduction by maximum from -∞ along the last axis of a [64,17,128] array, read at (n, c), is the maximum of
  that row folded from -∞.
-/
import proofs.«102934_j90649579749529_2_alg».proof.Proof.Spec
import proofs.«102934_j90649579749529_2_alg».proof.Proof.Gen.ReferenceIdeal.Read

noncomputable section

namespace Cert.ReferenceIdeal.RefStages

open Idealize.ShloMosaic Idealize.ShloMosaic.ValueIdx Cert.ReferenceIdeal Cert.ReferenceIdeal.Gen Cert.ReferenceIdeal.Read

/-- The word 0xFF800000 is -∞, the least extended real: the maximum with it is the other argument. -/
theorem max_ninf (y : EReal) : max (Ideal.ofBits .f32 0xFF800000#32) y = y := by
  simp [Ideal.ofBits, Ideal.ieee]

/-- The reduced index (n, c) with coordinate s put back on the last axis is (n, c, s). -/
theorem lift_ix3 (h : S64x17x128.Reduces [2] S64x17) (n : Fin 64) (c : Fin 17) (k : Fin (S64x17x128.size 2)) :
    h.lift (ix2 n c) k = ix3 n c (⟨k.val, k.isLt⟩ : Fin 128) := by
  funext a; apply Fin.ext
  match a with | ⟨0, _⟩ => rfl | ⟨1, _⟩ => rfl | ⟨2, _⟩ => rfl

/-- A reduction by maximum from -∞ over the last axis, at (n, c): the row's maximum. -/
theorem hostRowMax (m : (⟨S64x17x128, .f32⟩ : BufTy).Contents (Elt Ideal)) (n : Fin 64) (c : Fin 17) :
    Host.reduce (FloatOps.maximumf (F := Ideal)) m (constant (F := Ideal) S_ .f32 0xFF800000#32) reducesTo_S64x17x128_S64x17_d2 h_S_ (ix2 n c)
      = CstLoss.rmax (fun s => m (ix3 n c s)) := by
  have hR : S64x17x128.Reduces [2] S64x17 := by decide
  refine (Host.reduce_eq_fold_single (FloatOps.maximumf (F := Ideal) (φ := .f32)) m _ reducesTo_S64x17x128_S64x17_d2 hR h_S_ (ix2 n c)).trans ?_
  unfold CstLoss.rmax CstLoss.kninf
  have hf : (m ∘ hR.lift (ix2 n c)) = fun s : Fin 128 => m (ix3 n c s) :=
    funext fun k => congrArg m (lift_ix3 hR n c k)
  exact congrArg (fun f => Finset.fold max (Ideal.ofBits .f32 0xFF800000#32) f (Finset.univ : Finset (Fin 128))) hf

end Cert.ReferenceIdeal.RefStages

end
-- ==== Proof.RefStagesRowX.lean ====
/-
  The first input's normalised row marginal, as the reference program computes it.
  Three steps, each read at an index with explicit coordinates: the mean over the last axis, the shifted
  softmax along the remaining spatial axis, and the division by the Euclidean norm clamped below.
-/
import proofs.«102934_j90649579749529_2_alg».proof.Proof.RefStagesLib

noncomputable section

namespace Cert.ReferenceIdeal.RefStages

open Idealize.ShloMosaic Idealize.ShloMosaic.ValueIdx Cert.ReferenceIdeal Cert.ReferenceIdeal.Read

/-- The sum over the last axis divided by 128 is the specification's mean. -/
theorem v2_apply (x : (⟨S64x17x128x128, .f32⟩ : BufTy).Contents (Elt Ideal)) (n : Fin 64) (c : Fin 17) (h : Fin 128) :
    val_main_v2 (F := Ideal) x (ix3 n c h) = CstLoss.meanLast (CstLoss.curry4 x n) c h := by
  rw [val_main_v2_apply, val_main_v0_apply, val_main_v1_apply, val_main_cst_apply, val_main_cst_0_apply]
  simp only [Ideal.hostDivf_def, Ideal.ofBits_def, Ideal.ofBits_zero_f32, zero_add]
  unfold CstLoss.meanLast CstLoss.k128 CstLoss.curry4
  refine congrArg (fun t => Ideal.div t _) (Finset.sum_congr rfl fun w _ => congrArg x ?_)
  exact funext fun a => Fin.ext (by match a with | ⟨0, _⟩ => rfl | ⟨1, _⟩ => rfl | ⟨2, _⟩ => rfl | ⟨3, _⟩ => rfl)

/-- The maximum of -∞ and the row's reduction by maximum from -∞ is the row's maximum. -/
theorem v14_apply (x : (⟨S64x17x128x128, .f32⟩ : BufTy).Contents (Elt Ideal)) (n : Fin 64) (c : Fin 17) :
    val_main_v14 (F := Ideal) x (ix2 n c) = CstLoss.rmax (CstLoss.meanLast (CstLoss.curry4 x n) c) := by
  rw [val_main_v14_apply, val_main_v13_apply, val_main_cst_8_apply]
  unfold val_main_v12 val_main_cst_7
  rw [hostRowMax, Ideal.maximumf_def, Ideal.ofBits_def, max_ninf]
  exact congrArg CstLoss.rmax (funext fun s => v2_apply x n c s)

/-- The exponential of the mean shifted by the row's maximum. -/
theorem v18_apply (x : (⟨S64x17x128x128, .f32⟩ : BufTy).Contents (Elt Ideal)) (n : Fin 64) (c : Fin 17) (t : Fin 128) :
    val_main_v18 (F := Ideal) x (ix3 n c t)
      = Ideal.exp (CstLoss.meanLast (CstLoss.curry4 x n) c t - CstLoss.rmax (CstLoss.meanLast (CstLoss.curry4 x n) c)) := by
  rw [val_main_v18_apply, val_main_v17_apply, val_main_v16_apply, val_main_v15_apply, v2_apply]
  rw [show idx_main_v15 (idx_main_v16 (ix3 n c t)) = ix2 n c from
    funext fun a => Fin.ext (by match a with | ⟨0, _⟩ => rfl | ⟨1, _⟩ => rfl)]
  rw [v14_apply]
  rfl

/-- The shifted softmax of the mean. -/
theorem v22_apply (x : (⟨S64x17x128x128, .f32⟩ : BufTy).Contents (Elt Ideal)) (n : Fin 64) (c : Fin 17) (s : Fin 128) :
    val_main_v22 (F := Ideal) x (ix3 n c s) = CstLoss.smax (CstLoss.meanLast (CstLoss.curry4 x n) c) s := by
  rw [val_main_v22_apply, v18_apply, val_main_v21_apply, val_main_v20_apply, val_main_v19_apply,
    val_main_cst_9_apply]
  simp only [Ideal.hostDivf_def, Ideal.ofBits_def, Ideal.ofBits_zero_f32, zero_add]
  unfold CstLoss.smax
  refine congrArg (fun d => Ideal.div _ d) (Finset.sum_congr rfl fun t _ => ?_)
  refine Eq.trans (congrArg (val_main_v18 (F := Ideal) x) ?_) (v18_apply x n c t)
  exact funext fun a => Fin.ext (by match a with | ⟨0, _⟩ => rfl | ⟨1, _⟩ => rfl | ⟨2, _⟩ => rfl)

/-- The softmax divided by its Euclidean norm clamped below: the normalised marginal. -/
theorem v63_apply (x : (⟨S64x17x128x128, .f32⟩ : BufTy).Contents (Elt Ideal)) (n : Fin 64) (c : Fin 17) (s : Fin 128) :
    val_main_v63 (F := Ideal) x (ix3 n c s) = CstLoss.nRow (CstLoss.curry4 x) n c s := by
  rw [val_main_v63_apply, v22_apply, val_main_v62_apply, val_main_v61_apply, val_main_v59_apply,
    val_main_v58_apply, val_main_v57_apply, val_main_v60_apply, val_main_cst_19_apply, val_main_cst_20_apply]
  simp only [Ideal.hostDivf_def, Ideal.hostUnary_sqrt_def, Ideal.maximumf_def, Ideal.ofBits_def, Ideal.ofBits_zero_f32, zero_add]
  unfold CstLoss.nRow CstLoss.nrm CstLoss.l2n CstLoss.keps
  refine congrArg (fun d => Ideal.div _ (max (Ideal.sqrt d) _)) (Finset.sum_congr rfl fun t _ => ?_)
  rw [val_main_v56_apply, Ideal.mulf_def]
  have e : idx_main_v57 (idx_main_v58 (idx_main_v62 (ix3 n c s))) t = ix3 n c t :=
    funext fun a => Fin.ext (by match a with | ⟨0, _⟩ => rfl | ⟨1, _⟩ => rfl | ⟨2, _⟩ => rfl)
  rw [e, v22_apply]

end Cert.ReferenceIdeal.RefStages

end
-- ==== Proof.RefStagesRowY.lean ====
/-
  The second input's normalised row marginal, as the reference program computes it.
  Three steps, each read at an index with explicit coordinates: the mean over the last axis, the shifted
  softmax along the remaining spatial axis, and the division by the Euclidean norm clamped below.
-/
import proofs.«102934_j90649579749529_2_alg».proof.Proof.RefStagesLib

noncomputable section

namespace Cert.ReferenceIdeal.RefStages

open Idealize.ShloMosaic Idealize.ShloMosaic.ValueIdx Cert.ReferenceIdeal Cert.ReferenceIdeal.Read

/-- The sum over the last axis divided by 128 is the specification's mean. -/
theorem v8_apply (y : (⟨S64x17x128x128, .f32⟩ : BufTy).Contents (Elt Ideal)) (n : Fin 64) (c : Fin 17) (h : Fin 128) :
    val_main_v8 (F := Ideal) y (ix3 n c h) = CstLoss.meanLast (CstLoss.curry4 y n) c h := by
  rw [val_main_v8_apply, val_main_v6_apply, val_main_v7_apply, val_main_cst_3_apply, val_main_cst_4_apply]
  simp only [Ideal.hostDivf_def, Ideal.ofBits_def, Ideal.ofBits_zero_f32, zero_add]
  unfold CstLoss.meanLast CstLoss.k128 CstLoss.curry4
  refine congrArg (fun t => Ideal.div t _) (Finset.sum_congr rfl fun w _ => congrArg y ?_)
  exact funext fun a => Fin.ext (by match a with | ⟨0, _⟩ => rfl | ⟨1, _⟩ => rfl | ⟨2, _⟩ => rfl | ⟨3, _⟩ => rfl)

/-- The maximum of -∞ and the row's reduction by maximum from -∞ is the row's maximum. -/
theorem v25_apply (y : (⟨S64x17x128x128, .f32⟩ : BufTy).Contents (Elt Ideal)) (n : Fin 64) (c : Fin 17) :
    val_main_v25 (F := Ideal) y (ix2 n c) = CstLoss.rmax (CstLoss.meanLast (CstLoss.curry4 y n) c) := by
  rw [val_main_v25_apply, val_main_v24_apply, val_main_cst_11_apply]
  unfold val_main_v23 val_main_cst_10
  rw [hostRowMax, Ideal.maximumf_def, Ideal.ofBits_def, max_ninf]
  exact congrArg CstLoss.rmax (funext fun s => v8_apply y n c s)

/-- The exponential of the mean shifted by the row's maximum. -/
theorem v29_apply (y : (⟨S64x17x128x128, .f32⟩ : BufTy).Contents (Elt Ideal)) (n : Fin 64) (c : Fin 17) (t : Fin 128) :
    val_main_v29 (F := Ideal) y (ix3 n c t)
      = Ideal.exp (CstLoss.meanLast (CstLoss.curry4 y n) c t - CstLoss.rmax (CstLoss.meanLast (CstLoss.curry4 y n) c)) := by
  rw [val_main_v29_apply, val_main_v28_apply, val_main_v27_apply, val_main_v26_apply, v8_apply]
  rw [show idx_main_v26 (idx_main_v27 (ix3 n c t)) = ix2 n c from
    funext fun a => Fin.ext (by match a with | ⟨0, _⟩ => rfl | ⟨1, _⟩ => rfl)]
  rw [v25_apply]
  rfl

/-- The shifted softmax of the mean. -/
theorem v33_apply (y : (⟨S64x17x128x128, .f32⟩ : BufTy).Contents (Elt Ideal)) (n : Fin 64) (c : Fin 17) (s : Fin 128) :
    val_main_v33 (F := Ideal) y (ix3 n c s) = CstLoss.smax (CstLoss.meanLast (CstLoss.curry4 y n) c) s := by
  rw [val_main_v33_apply, v29_apply, val_main_v32_apply, val_main_v31_apply, val_main_v30_apply,
    val_main_cst_12_apply]
  simp only [Ideal.hostDivf_def, Ideal.ofBits_def, Ideal.ofBits_zero_f32, zero_add]
  unfold CstLoss.smax
  refine congrArg (fun d => Ideal.div _ d) (Finset.sum_congr rfl fun t _ => ?_)
  refine Eq.trans (congrArg (val_main_v29 (F := Ideal) y) ?_) (v29_apply y n c t)
  exact funext fun a => Fin.ext (by match a with | ⟨0, _⟩ => rfl | ⟨1, _⟩ => rfl | ⟨2, _⟩ => rfl)

/-- The softmax divided by its Euclidean norm clamped below: the normalised marginal. -/
theorem v71_apply (y : (⟨S64x17x128x128, .f32⟩ : BufTy).Contents (Elt Ideal)) (n : Fin 64) (c : Fin 17) (s : Fin 128) :
    val_main_v71 (F := Ideal) y (ix3 n c s) = CstLoss.nRow (CstLoss.curry4 y) n c s := by
  rw [val_main_v71_apply, v33_apply, val_main_v70_apply, val_main_v69_apply, val_main_v67_apply,
    val_main_v66_apply, val_main_v65_apply, val_main_v68_apply, val_main_cst_21_apply, val_main_cst_22_apply]
  simp only [Ideal.hostDivf_def, Ideal.hostUnary_sqrt_def, Ideal.maximumf_def, Ideal.ofBits_def, Ideal.ofBits_zero_f32, zero_add]
  unfold CstLoss.nRow CstLoss.nrm CstLoss.l2n CstLoss.keps
  refine congrArg (fun d => Ideal.div _ (max (Ideal.sqrt d) _)) (Finset.sum_congr rfl fun t _ => ?_)
  rw [val_main_v64_apply, Ideal.mulf_def]
  have e : idx_main_v65 (idx_main_v66 (idx_main_v70 (ix3 n c s))) t = ix3 n c t :=
    funext fun a => Fin.ext (by match a with | ⟨0, _⟩ => rfl | ⟨1, _⟩ => rfl | ⟨2, _⟩ => rfl)
  rw [e, v33_apply]

end Cert.ReferenceIdeal.RefStages

end
-- ==== Proof.RefStagesColX.lean ====
/-
  The first input's normalised column marginal, as the reference program computes it.
  Three steps, each read at an index with explicit coordinates: the mean over the middle axis, the shifted
  softmax along the remaining spatial axis, and the division by the Euclidean norm clamped below.
-/
import proofs.«102934_j90649579749529_2_alg».proof.Proof.RefStagesLib

noncomputable section

namespace Cert.ReferenceIdeal.RefStages

open Idealize.ShloMosaic Idealize.ShloMosaic.ValueIdx Cert.ReferenceIdeal Cert.ReferenceIdeal.Read

/-- The sum over the middle axis divided by 128 is the specification's mean. -/
theorem v5_apply (x : (⟨S64x17x128x128, .f32⟩ : BufTy).Contents (Elt Ideal)) (n : Fin 64) (c : Fin 17) (h : Fin 128) :
    val_main_v5 (F := Ideal) x (ix3 n c h) = CstLoss.meanMid (CstLoss.curry4 x n) c h := by
  rw [val_main_v5_apply, val_main_v3_apply, val_main_v4_apply, val_main_cst_1_apply, val_main_cst_2_apply]
  simp only [Ideal.hostDivf_def, Ideal.ofBits_def, Ideal.ofBits_zero_f32, zero_add]
  unfold CstLoss.meanMid CstLoss.k128 CstLoss.curry4
  refine congrArg (fun t => Ideal.div t _) (Finset.sum_congr rfl fun w _ => congrArg x ?_)
  exact funext fun a => Fin.ext (by match a with | ⟨0, _⟩ => rfl | ⟨1, _⟩ => rfl | ⟨2, _⟩ => rfl | ⟨3, _⟩ => rfl)

/-- The maximum of -∞ and the row's reduction by maximum from -∞ is the row's maximum. -/
theorem v36_apply (x : (⟨S64x17x128x128, .f32⟩ : BufTy).Contents (Elt Ideal)) (n : Fin 64) (c : Fin 17) :
    val_main_v36 (F := Ideal) x (ix2 n c) = CstLoss.rmax (CstLoss.meanMid (CstLoss.curry4 x n) c) := by
  rw [val_main_v36_apply, val_main_v35_apply, val_main_cst_14_apply]
  unfold val_main_v34 val_main_cst_13
  rw [hostRowMax, Ideal.maximumf_def, Ideal.ofBits_def, max_ninf]
  exact congrArg CstLoss.rmax (funext fun s => v5_apply x n c s)

/-- The exponential of the mean shifted by the row's maximum. -/
theorem v40_apply (x : (⟨S64x17x128x128, .f32⟩ : BufTy).Contents (Elt Ideal)) (n : Fin 64) (c : Fin 17) (t : Fin 128) :
    val_main_v40 (F := Ideal) x (ix3 n c t)
      = Ideal.exp (CstLoss.meanMid (CstLoss.curry4 x n) c t - CstLoss.rmax (CstLoss.meanMid (CstLoss.curry4 x n) c)) := by
  rw [val_main_v40_apply, val_main_v39_apply, val_main_v38_apply, val_main_v37_apply, v5_apply]
  rw [show idx_main_v37 (idx_main_v38 (ix3 n c t)) = ix2 n c from
    funext fun a => Fin.ext (by match a with | ⟨0, _⟩ => rfl | ⟨1, _⟩ => rfl)]
  rw [v36_apply]
  rfl

/-- The shifted softmax of the mean. -/
theorem v44_apply (x : (⟨S64x17x128x128, .f32⟩ : BufTy).Contents (Elt Ideal)) (n : Fin 64) (c : Fin 17) (s : Fin 128) :
    val_main_v44 (F := Ideal) x (ix3 n c s) = CstLoss.smax (CstLoss.meanMid (CstLoss.curry4 x n) c) s := by
  rw [val_main_v44_apply, v40_apply, val_main_v43_apply, val_main_v42_apply, val_main_v41_apply,
    val_main_cst_15_apply]
  simp only [Ideal.hostDivf_def, Ideal.ofBits_def, Ideal.ofBits_zero_f32, zero_add]
  unfold CstLoss.smax
  refine congrArg (fun d => Ideal.div _ d) (Finset.sum_congr rfl fun t _ => ?_)
  refine Eq.trans (congrArg (val_main_v40 (F := Ideal) x) ?_) (v40_apply x n c t)
  exact funext fun a => Fin.ext (by match a with | ⟨0, _⟩ => rfl | ⟨1, _⟩ => rfl | ⟨2, _⟩ => rfl)

/-- The softmax divided by its Euclidean norm clamped below: the normalised marginal. -/
theorem v79_apply (x : (⟨S64x17x128x128, .f32⟩ : BufTy).Contents (Elt Ideal)) (n : Fin 64) (c : Fin 17) (s : Fin 128) :
    val_main_v79 (F := Ideal) x (ix3 n c s) = CstLoss.nCol (CstLoss.curry4 x) n c s := by
  rw [val_main_v79_apply, v44_apply, val_main_v78_apply, val_main_v77_apply, val_main_v75_apply,
    val_main_v74_apply, val_main_v73_apply, val_main_v76_apply, val_main_cst_23_apply, val_main_cst_24_apply]
  simp only [Ideal.hostDivf_def, Ideal.hostUnary_sqrt_def, Ideal.maximumf_def, Ideal.ofBits_def, Ideal.ofBits_zero_f32, zero_add]
  unfold CstLoss.nCol CstLoss.nrm CstLoss.l2n CstLoss.keps
  refine congrArg (fun d => Ideal.div _ (max (Ideal.sqrt d) _)) (Finset.sum_congr rfl fun t _ => ?_)
  rw [val_main_v72_apply, Ideal.mulf_def]
  have e : idx_main_v73 (idx_main_v74 (idx_main_v78 (ix3 n c s))) t = ix3 n c t :=
    funext fun a => Fin.ext (by match a with | ⟨0, _⟩ => rfl | ⟨1, _⟩ => rfl | ⟨2, _⟩ => rfl)
  rw [e, v44_apply]

end Cert.ReferenceIdeal.RefStages

end
-- ==== Proof.RefStagesColY.lean ====
/-
  The second input's normalised column marginal, as the reference program computes it.
  Three steps, each read at an index with explicit coordinates: the mean over the middle axis, the shifted
  softmax along the remaining spatial axis, and the division by the Euclidean norm clamped below.
-/
import proofs.«102934_j90649579749529_2_alg».proof.Proof.RefStagesLib

noncomputable section

namespace Cert.ReferenceIdeal.RefStages

open Idealize.ShloMosaic Idealize.ShloMosaic.ValueIdx Cert.ReferenceIdeal Cert.ReferenceIdeal.Read

/-- The sum over the middle axis divided by 128 is the specification's mean. -/
theorem v11_apply (y : (⟨S64x17x128x128, .f32⟩ : BufTy).Contents (Elt Ideal)) (n : Fin 64) (c : Fin 17) (h : Fin 128) :
    val_main_v11 (F := Ideal) y (ix3 n c h) = CstLoss.meanMid (CstLoss.curry4 y n) c h := by
  rw [val_main_v11_apply, val_main_v9_apply, val_main_v10_apply, val_main_cst_5_apply, val_main_cst_6_apply]
  simp only [Ideal.hostDivf_def, Ideal.ofBits_def, Ideal.ofBits_zero_f32, zero_add]
  unfold CstLoss.meanMid CstLoss.k128 CstLoss.curry4
  refine congrArg (fun t => Ideal.div t _) (Finset.sum_congr rfl fun w _ => congrArg y ?_)
  exact funext fun a => Fin.ext (by match a with | ⟨0, _⟩ => rfl | ⟨1, _⟩ => rfl | ⟨2, _⟩ => rfl | ⟨3, _⟩ => rfl)

/-- The maximum of -∞ and the row's reduction by maximum from -∞ is the row's maximum. -/
theorem v47_apply (y : (⟨S64x17x128x128, .f32⟩ : BufTy).Contents (Elt Ideal)) (n : Fin 64) (c : Fin 17) :
    val_main_v47 (F := Ideal) y (ix2 n c) = CstLoss.rmax (CstLoss.meanMid (CstLoss.curry4 y n) c) := by
  rw [val_main_v47_apply, val_main_v46_apply, val_main_cst_17_apply]
  unfold val_main_v45 val_main_cst_16
  rw [hostRowMax, Ideal.maximumf_def, Ideal.ofBits_def, max_ninf]
  exact congrArg CstLoss.rmax (funext fun s => v11_apply y n c s)

/-- The exponential of the mean shifted by the row's maximum. -/
theorem v51_apply (y : (⟨S64x17x128x128, .f32⟩ : BufTy).Contents (Elt Ideal)) (n : Fin 64) (c : Fin 17) (t : Fin 128) :
    val_main_v51 (F := Ideal) y (ix3 n c t)
      = Ideal.exp (CstLoss.meanMid (CstLoss.curry4 y n) c t - CstLoss.rmax (CstLoss.meanMid (CstLoss.curry4 y n) c)) := by
  rw [val_main_v51_apply, val_main_v50_apply, val_main_v49_apply, val_main_v48_apply, v11_apply]
  rw [show idx_main_v48 (idx_main_v49 (ix3 n c t)) = ix2 n c from
    funext fun a => Fin.ext (by match a with | ⟨0, _⟩ => rfl | ⟨1, _⟩ => rfl)]
  rw [v47_apply]
  rfl

/-- The shifted softmax of the mean. -/
theorem v55_apply (y : (⟨S64x17x128x128, .f32⟩ : BufTy).Contents (Elt Ideal)) (n : Fin 64) (c : Fin 17) (s : Fin 128) :
    val_main_v55 (F := Ideal) y (ix3 n c s) = CstLoss.smax (CstLoss.meanMid (CstLoss.curry4 y n) c) s := by
  rw [val_main_v55_apply, v51_apply, val_main_v54_apply, val_main_v53_apply, val_main_v52_apply,
    val_main_cst_18_apply]
  simp only [Ideal.hostDivf_def, Ideal.ofBits_def, Ideal.ofBits_zero_f32, zero_add]
  unfold CstLoss.smax
  refine congrArg (fun d => Ideal.div _ d) (Finset.sum_congr rfl fun t _ => ?_)
  refine Eq.trans (congrArg (val_main_v51 (F := Ideal) y) ?_) (v51_apply y n c t)
  exact funext fun a => Fin.ext (by match a with | ⟨0, _⟩ => rfl | ⟨1, _⟩ => rfl | ⟨2, _⟩ => rfl)

/-- The softmax divided by its Euclidean norm clamped below: the normalised marginal. -/
theorem v87_apply (y : (⟨S64x17x128x128, .f32⟩ : BufTy).Contents (Elt Ideal)) (n : Fin 64) (c : Fin 17) (s : Fin 128) :
    val_main_v87 (F := Ideal) y (ix3 n c s) = CstLoss.nCol (CstLoss.curry4 y) n c s := by
  rw [val_main_v87_apply, v55_apply, val_main_v86_apply, val_main_v85_apply, val_main_v83_apply,
    val_main_v82_apply, val_main_v81_apply, val_main_v84_apply, val_main_cst_25_apply, val_main_cst_26_apply]
  simp only [Ideal.hostDivf_def, Ideal.hostUnary_sqrt_def, Ideal.maximumf_def, Ideal.ofBits_def, Ideal.ofBits_zero_f32, zero_add]
  unfold CstLoss.nCol CstLoss.nrm CstLoss.l2n CstLoss.keps
  refine congrArg (fun d => Ideal.div _ (max (Ideal.sqrt d) _)) (Finset.sum_congr rfl fun t _ => ?_)
  rw [val_main_v80_apply, Ideal.mulf_def]
  have e : idx_main_v81 (idx_main_v82 (idx_main_v86 (ix3 n c s))) t = ix3 n c t :=
    funext fun a => Fin.ext (by match a with | ⟨0, _⟩ => rfl | ⟨1, _⟩ => rfl | ⟨2, _⟩ => rfl)
  rw [e, v55_apply]

end Cert.ReferenceIdeal.RefStages

end
-- ==== Proof.RefStages.lean ====
/-
  The reference program's four normalised marginals read at an index: rows and columns of each input.
-/
import proofs.«102934_j90649579749529_2_alg».proof.Proof.RefStagesRowX
import proofs.«102934_j90649579749529_2_alg».proof.Proof.RefStagesRowY
import proofs.«102934_j90649579749529_2_alg».proof.Proof.RefStagesColX
import proofs.«102934_j90649579749529_2_alg».proof.Proof.RefStagesColY
-- ==== Proof.RefTail.lean ====
/-
  The scalar end of the reference: from the four normalised marginals (row and column marginals of the two
  inputs, each a [64,17,128] array) to the loss.

  Matched channels: for every sample n and channel c the two inner products over the last axis are added and
  halved, everything is summed over (n, c) and divided by 1088.  All pairs of channels: for every sample n and
  channels i, j the two inner products of channel i of the first input with channel j of the second are added
  and halved, summed over n, divided by 64, and summed over (i, j).  The loss is
  -log (matched / pairs) / 17 / 64.  A host sum starts from the float word 0; for the two inner sums over the
  last axis the specification has no such start value, so there the 0 is removed.
-/
import proofs.«102934_j90649579749529_2_alg».proof.Proof.Spec
import proofs.«102934_j90649579749529_2_alg».proof.Proof.Gen.ReferenceIdeal.Read

noncomputable section

namespace Cert.ReferenceIdeal.RefTail

open Idealize.ShloMosaic Idealize.ShloMosaic.ValueIdx Cert.ReferenceIdeal Cert.ReferenceIdeal.Read

abbrev Inp := (⟨S64x17x128x128, .f32⟩ : BufTy).Contents (Elt Ideal)

/-- The index a sum over the last axis reads is the output's two coordinates followed by the summation variable. -/
theorem idx89 (n : Fin 64) (c : Fin 17) (k : Fin 128) : idx_main_v89 (ix2 n c) k = ix3 n c k :=
  funext fun a => Fin.ext (by match a with | ⟨0, _⟩ => rfl | ⟨1, _⟩ => rfl | ⟨2, _⟩ => rfl)
theorem idx91 (n : Fin 64) (c : Fin 17) (k : Fin 128) : idx_main_v91 (ix2 n c) k = ix3 n c k :=
  funext fun a => Fin.ext (by match a with | ⟨0, _⟩ => rfl | ⟨1, _⟩ => rfl | ⟨2, _⟩ => rfl)

/-- Matched channels of one sample and channel: the two inner products, added and halved. -/
theorem v94_at (x y : Inp) (X Y : CstLoss.Arr)
    (hA : ∀ (n : Fin 64) (c : Fin 17) (s : Fin 128), val_main_v63 (F := Ideal) x (ix3 n c s) = CstLoss.nRow X n c s)
    (hB : ∀ (n : Fin 64) (c : Fin 17) (s : Fin 128), val_main_v71 (F := Ideal) y (ix3 n c s) = CstLoss.nRow Y n c s)
    (hC : ∀ (n : Fin 64) (c : Fin 17) (s : Fin 128), val_main_v79 (F := Ideal) x (ix3 n c s) = CstLoss.nCol X n c s)
    (hD : ∀ (n : Fin 64) (c : Fin 17) (s : Fin 128), val_main_v87 (F := Ideal) y (ix3 n c s) = CstLoss.nCol Y n c s)
    (n : Fin 64) (c : Fin 17) :
    val_main_v94 (F := Ideal) x y (ix2 n c) =
      ((∑ s : Fin 128, CstLoss.nRow X n c s * CstLoss.nRow Y n c s)
        + (∑ s : Fin 128, CstLoss.nCol X n c s * CstLoss.nCol Y n c s)) * CstLoss.khalf := by
  rw [val_main_v94_apply, val_main_v92_apply, val_main_v89_apply, val_main_v91_apply, val_main_v93_apply,
    val_main_cst_27_apply, val_main_cst_28_apply, val_main_cst_29_apply]
  simp only [idx89, idx91, val_main_v88_apply, val_main_v90_apply, hA, hB, hC, hD, Ideal.mulf_def, Ideal.addf_def,
    Ideal.ofBits_def, Ideal.ofBits_zero_f32, zero_add]
  rfl

/-- The matched-channel mean: the sum over all samples and channels from the start value 0, divided by 1088. -/
theorem v96_at (x y : Inp) (X Y : CstLoss.Arr)
    (hA : ∀ (n : Fin 64) (c : Fin 17) (s : Fin 128), val_main_v63 (F := Ideal) x (ix3 n c s) = CstLoss.nRow X n c s)
    (hB : ∀ (n : Fin 64) (c : Fin 17) (s : Fin 128), val_main_v71 (F := Ideal) y (ix3 n c s) = CstLoss.nRow Y n c s)
    (hC : ∀ (n : Fin 64) (c : Fin 17) (s : Fin 128), val_main_v79 (F := Ideal) x (ix3 n c s) = CstLoss.nCol X n c s)
    (hD : ∀ (n : Fin 64) (c : Fin 17) (s : Fin 128), val_main_v87 (F := Ideal) y (ix3 n c s) = CstLoss.nCol Y n c s)
    (i : S_.Idx) :
    val_main_v96 (F := Ideal) x y i =
      Ideal.div (CstLoss.k0 + ∑ n : Fin 64, ∑ c : Fin 17,
        ((∑ s : Fin 128, CstLoss.nRow X n c s * CstLoss.nRow Y n c s)
          + (∑ s : Fin 128, CstLoss.nCol X n c s * CstLoss.nCol Y n c s)) * CstLoss.khalf) CstLoss.k1088 := by
  rw [val_main_v96_apply, val_main_v95_apply, sum_idx2, val_main_cst_30_apply, val_main_cst_31_apply]
  simp only [v94_at x y X Y hA hB hC hD, Ideal.hostDivf_def, Ideal.ofBits_def]
  rfl

/-- The indices a batched contraction over the last axis reads: the sample, the left (right) channel, the
    summation variable. -/
theorem lidx97 (n : Fin 64) (i j : Fin 17) (k : Fin 128) : lidx_main_v97 (ix3 n i j) k = ix3 n i k :=
  funext fun a => Fin.ext (by match a with | ⟨0, _⟩ => rfl | ⟨1, _⟩ => rfl | ⟨2, _⟩ => rfl)
theorem ridx97 (n : Fin 64) (i j : Fin 17) (k : Fin 128) : ridx_main_v97 (ix3 n i j) k = ix3 n j k :=
  funext fun a => Fin.ext (by match a with | ⟨0, _⟩ => rfl | ⟨1, _⟩ => rfl | ⟨2, _⟩ => rfl)
theorem lidx98 (n : Fin 64) (i j : Fin 17) (k : Fin 128) : lidx_main_v98 (ix3 n i j) k = ix3 n i k :=
  funext fun a => Fin.ext (by match a with | ⟨0, _⟩ => rfl | ⟨1, _⟩ => rfl | ⟨2, _⟩ => rfl)
theorem ridx98 (n : Fin 64) (i j : Fin 17) (k : Fin 128) : ridx_main_v98 (ix3 n i j) k = ix3 n j k :=
  funext fun a => Fin.ext (by match a with | ⟨0, _⟩ => rfl | ⟨1, _⟩ => rfl | ⟨2, _⟩ => rfl)

/-- All pairs of channels, one sample: the two inner products of channel i with channel j, added and halved. -/
theorem v101_at (x y : Inp) (X Y : CstLoss.Arr)
    (hA : ∀ (n : Fin 64) (c : Fin 17) (s : Fin 128), val_main_v63 (F := Ideal) x (ix3 n c s) = CstLoss.nRow X n c s)
    (hB : ∀ (n : Fin 64) (c : Fin 17) (s : Fin 128), val_main_v71 (F := Ideal) y (ix3 n c s) = CstLoss.nRow Y n c s)
    (hC : ∀ (n : Fin 64) (c : Fin 17) (s : Fin 128), val_main_v79 (F := Ideal) x (ix3 n c s) = CstLoss.nCol X n c s)
    (hD : ∀ (n : Fin 64) (c : Fin 17) (s : Fin 128), val_main_v87 (F := Ideal) y (ix3 n c s) = CstLoss.nCol Y n c s)
    (n : Fin 64) (i j : Fin 17) :
    val_main_v101 (F := Ideal) x y (ix3 n i j) =
      ((∑ s : Fin 128, CstLoss.nRow X n i s * CstLoss.nRow Y n j s)
        + (∑ s : Fin 128, CstLoss.nCol X n i s * CstLoss.nCol Y n j s)) * CstLoss.khalf := by
  rw [val_main_v101_apply, val_main_v99_apply, val_main_v97_apply, val_main_v98_apply, val_main_v100_apply,
    val_main_cst_32_apply]
  simp only [lidx97, ridx97, lidx98, ridx98, hA, hB, hC, hD, Ideal.mulf_def, Ideal.addf_def, Ideal.ofBits_def]
  rfl

/-- The index the sum over samples reads. -/
theorem idx102 (i j : Fin 17) (k : Fin 64) : idx_main_v102 (ix2 i j) k = ix3 k i j :=
  funext fun a => Fin.ext (by match a with | ⟨0, _⟩ => rfl | ⟨1, _⟩ => rfl | ⟨2, _⟩ => rfl)

/-- The all-pairs term: for each pair of channels the mean over samples (start value 0), then the sum over all
    pairs (start value 0). -/
theorem v105_at (x y : Inp) (X Y : CstLoss.Arr)
    (hA : ∀ (n : Fin 64) (c : Fin 17) (s : Fin 128), val_main_v63 (F := Ideal) x (ix3 n c s) = CstLoss.nRow X n c s)
    (hB : ∀ (n : Fin 64) (c : Fin 17) (s : Fin 128), val_main_v71 (F := Ideal) y (ix3 n c s) = CstLoss.nRow Y n c s)
    (hC : ∀ (n : Fin 64) (c : Fin 17) (s : Fin 128), val_main_v79 (F := Ideal) x (ix3 n c s) = CstLoss.nCol X n c s)
    (hD : ∀ (n : Fin 64) (c : Fin 17) (s : Fin 128), val_main_v87 (F := Ideal) y (ix3 n c s) = CstLoss.nCol Y n c s)
    (i : S_.Idx) :
    val_main_v105 (F := Ideal) x y i =
      CstLoss.k0 + ∑ i : Fin 17, ∑ j : Fin 17, Ideal.div (CstLoss.k0 + ∑ n : Fin 64,
        ((∑ s : Fin 128, CstLoss.nRow X n i s * CstLoss.nRow Y n j s)
          + (∑ s : Fin 128, CstLoss.nCol X n i s * CstLoss.nCol Y n j s)) * CstLoss.khalf) CstLoss.k64 := by
  rw [val_main_v105_apply, sum_idx2, val_main_cst_35_apply]
  simp only [val_main_v104_apply, val_main_v102_apply, val_main_v103_apply, val_main_cst_33_apply,
    val_main_cst_34_apply, idx102, v101_at x y X Y hA hB hC hD, Ideal.hostDivf_def, Ideal.ofBits_def]
  rfl

/-- The reference's result is the specification's loss. -/
theorem ref_tail (x y : Inp) (X Y : CstLoss.Arr)
    (hA : ∀ (n : Fin 64) (c : Fin 17) (s : Fin 128), val_main_v63 (F := Ideal) x (ix3 n c s) = CstLoss.nRow X n c s)
    (hB : ∀ (n : Fin 64) (c : Fin 17) (s : Fin 128), val_main_v71 (F := Ideal) y (ix3 n c s) = CstLoss.nRow Y n c s)
    (hC : ∀ (n : Fin 64) (c : Fin 17) (s : Fin 128), val_main_v79 (F := Ideal) x (ix3 n c s) = CstLoss.nCol X n c s)
    (hD : ∀ (n : Fin 64) (c : Fin 17) (s : Fin 128), val_main_v87 (F := Ideal) y (ix3 n c s) = CstLoss.nCol Y n c s) :
    val_main_v110 (F := Ideal) x y = fun _ => CstLoss.refRes X Y := by
  funext i
  rw [val_main_v110_apply, val_main_v109_apply, val_main_v108_apply, val_main_v107_apply, val_main_v106_apply,
    v96_at x y X Y hA hB hC hD, v105_at x y X Y hA hB hC hD, val_main_cst_36_apply, val_main_cst_37_apply]
  simp only [Ideal.hostDivf_def, Ideal.hostUnary_log_def, Ideal.hostNegf_def, Ideal.negf_def, Ideal.ofBits_def]
  rfl

end Cert.ReferenceIdeal.RefTail

end
-- ==== Proof.RefValue.lean ====
/-
  The reference program's result as a value: with the four normalised marginals read at an index and the
  scalar epilogue read over them, the program's one output is the specification's loss of the two inputs
  read by coordinates. The run statements carry this through the program's execution: it terminates, writes
  that value, and leaves both inputs as they were.
-/
import proofs.«102934_j90649579749529_2_alg».proof.Defs
import proofs.«102934_j90649579749529_2_alg».proof.Proof.Gen.ReferenceIdeal
import proofs.«102934_j90649579749529_2_alg».proof.Proof.Gen.Pre_finite_inputs
import proofs.«102934_j90649579749529_2_alg».proof.Proof.Gen.ReferenceIdeal.Run
import proofs.«102934_j90649579749529_2_alg».proof.Proof.Gen.ReferenceIdeal.Read
import proofs.«102934_j90649579749529_2_alg».proof.Proof.RefStages
import proofs.«102934_j90649579749529_2_alg».proof.Proof.RefTail

noncomputable section

namespace Cert.ReferenceIdeal.RefValue

open Idealize.ShloMosaic Idealize.ShloMosaic.ValueIdx Idealize.ShloMosaic.TcCoe Idealize.SL.Sem Cert.ReferenceIdeal Cert.ReferenceIdeal.Read

/-- The program's output is the loss of the two inputs read by coordinates. -/
theorem ref_value (x y : (⟨S64x17x128x128, .f32⟩ : BufTy).Contents (Elt Ideal)) :
    Cert.ReferenceIdeal.Read.val_main_v110 (F := Ideal) x y = fun _ => CstLoss.refRes (CstLoss.curry4 x) (CstLoss.curry4 y) :=
  Cert.ReferenceIdeal.RefTail.ref_tail x y (CstLoss.curry4 x) (CstLoss.curry4 y)
    (Cert.ReferenceIdeal.RefStages.v63_apply x) (Cert.ReferenceIdeal.RefStages.v71_apply y)
    (Cert.ReferenceIdeal.RefStages.v79_apply x) (Cert.ReferenceIdeal.RefStages.v87_apply y)

/-- The program runs, ends with that loss in its result, and leaves its two arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v110)
          = (fun _ => CstLoss.refRes (CstLoss.curry4 (m ((c.tc : Thread Cert.ReferenceIdeal.nD Cert.ReferenceIdeal.τ).loc Cert.ReferenceIdeal.main_arg0)))
              (CstLoss.curry4 (m ((c.tc : Thread Cert.ReferenceIdeal.nD Cert.ReferenceIdeal.τ).loc Cert.ReferenceIdeal.main_arg1))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c => ⟨(h c).1.trans ((Cert.ReferenceIdeal.Read.val_main_v110_eq m c).trans (ref_value _ _)), (h c).2.1, (h c).2.2⟩)
    (Cert.ReferenceIdeal.Value.run (F := Ideal) m ρ)

/-- The frame claim: the program runs and its arguments end unchanged. -/
theorem ref_frame : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.ReferenceIdeal.RefValue

end
-- ==== Proof.Finite.lean ====
import proofs.«102934_j90649579749529_2_alg».proof.Defs
import proofs.«102934_j90649579749529_2_alg».proof.Proof.Gen.Pre_finite_inputs
import Idealize.ShloMosaic.Lib.ReduceAll
import Idealize.ShloMosaic.Lib.ValueIdx

/-!
  From the precondition to real-valued inputs.  The predicate says that, for both argument
  arrays, the absolute value of every entry is strictly below +∞.  Over the extended reals the
  absolute value is max x (-x), which is ⊤ at both ⊤ and ⊥; so an entry whose absolute value is
  below ⊤ is neither, i.e. it is (the coercion of) a real number.
-/

noncomputable section

namespace Cert.Proof.Finite

open Idealize.ShloMosaic Idealize.SL.Sem

/-- The result shape of a reduction over all axes has exactly one index. -/
instance subsingleton_scalar_idx : Subsingleton Cert.Pre_finite_inputs.S_.Idx :=
  ⟨fun a b => funext fun d => d.elim0⟩

/-- The word 0x7F800000 denotes +∞. -/
theorem inf_word : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value max x (-x) is strictly below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element fact: the comparison |x| < +∞ coming out 1 makes x real. -/
theorem real_of_cmp (x : EReal)
    (h : Ideal.cmp .olt (max x (-x)) (Ideal.ofBits .f32 0x7F800000#32) = 1#1) : ∃ r : ℝ, x = (r : EReal) := by
  rw [inf_word] at h
  unfold Ideal.cmp at h
  rw [ofBool_eq_one] at h
  exact real_of_abs_lt_top x (of_decide_eq_true h)

/-- The predicate being all ones makes every entry of both arrays a real number. -/
theorem real_of_fn (x y : FVec Ideal Cert.Pre_finite_inputs.S64x17x128x128 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact real_of_cmp (x i) (Host.reduce_andi_all _ _ _ _ _ hx i)
  · exact real_of_cmp (y i) (Host.reduce_andi_all _ _ _ _ _ hy i)

/-- Under the kernel's precondition both argument arrays hold real numbers, on every device. -/
theorem real_of_pre (m : (ℓ : Loc Cert.KernelIdeal.nD Cert.KernelIdeal.τ Cert.KernelIdeal.sig) → Buf (Elt Ideal) ℓ) (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal)) ∧ (∀ i, ∃ r : ℝ, m ((c.tc : Thread Cert.KernelIdeal.nD Cert.KernelIdeal.τ).loc Cert.KernelIdeal.main_arg1) i = (r : EReal)) :=
  real_of_fn _ _ (h c)

end Cert.Proof.Finite

end
-- ==== Proof.lean ====
/-
  The certificate of a pairwise cosine-similarity loss: a kernel that streams two [64,17,128,128] arrays in
  blocks of eight samples over a [2,4] grid, against its plain array reference.

  Per sample the kernel forms the two marginal means of each input, a shifted softmax of every row, each row
  divided by its clamped Euclidean norm, and from these four normalised marginals A, B, C, D two numbers: the
  matched-channel term ∑_c (⟨A_c, B_c⟩ + ⟨C_c, D_c⟩)/2 and the all-pairs term (⟨∑_i A_i, ∑_j B_j⟩ + ⟨∑_i C_i, ∑_j D_j⟩)/2.
  Each core accumulates both over its 32 samples in a one-element output block; the host adds the two cores and
  takes -log((P/1088)/(S/64))/17/64. The reference computes the same marginals on whole arrays, takes the
  matched-channel mean over (n, c), and the all-pairs term as ∑_{i,j} (∑_n (⟨A_ni, B_nj⟩ + ⟨C_ni, D_nj⟩)/2)/64.

  The two agree on the extended reals when the inputs are finite: every marginal is then a real number (the softmax
  denominators are positive, the norms are clamped below by a positive constant), and over the reals the sum over
  pairs of channels of inner products is the inner product of the sums, and a common divisor leaves a finite sum.
  The matched-channel parts differ only in the order of a finite sum.

  The three frames: the kernel's two are the generated frames of its region; the reference's is its run with the
  result dropped. The idealization rewrote nothing, so `preserves` is `True`.
-/
import proofs.«102934_j90649579749529_2_alg».proof.Defs
import proofs.«102934_j90649579749529_2_alg».proof.Proof.Gen.Kernel
import proofs.«102934_j90649579749529_2_alg».proof.Proof.Gen.Kernel.Frame
import proofs.«102934_j90649579749529_2_alg».proof.Proof.Gen.KernelIdeal
import proofs.«102934_j90649579749529_2_alg».proof.Proof.Gen.KernelIdeal.Frame
import proofs.«102934_j90649579749529_2_alg».proof.Proof.Gen.ReferenceIdeal
import proofs.«102934_j90649579749529_2_alg».proof.Proof.Gen.Pre_finite_inputs
import proofs.«102934_j90649579749529_2_alg».proof.Proof.KRun
import proofs.«102934_j90649579749529_2_alg».proof.Proof.RefValue
import proofs.«102934_j90649579749529_2_alg».proof.Proof.Finite
import proofs.«102934_j90649579749529_2_alg».proof.Proof.Algebra

noncomputable section

namespace Cert.Proof

open Idealize.ShloMosaic Idealize.SL.Sem

/-- Both idealized programs end at the same loss: the kernel's at the kernel-order form, the reference's at the
    reference-order form of the same finite arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => CstLoss.kernRes
      (CstLoss.curry4 (m ((c.tc : Thread Cert.KernelIdeal.nD Cert.KernelIdeal.τ).loc Cert.KernelIdeal.main_arg0)))
      (CstLoss.curry4 (m ((c.tc : Thread Cert.KernelIdeal.nD Cert.KernelIdeal.τ).loc Cert.KernelIdeal.main_arg1))),
    Cert.KernelIdeal.BodyRun.kernel_run m ρ, ?_⟩
  refine (θ_run Cert.ReferenceIdeal.defs _ _).mono (fun _ h c => ⟨(h c).1.trans ?_, (h c).2.1, (h c).2.2⟩)
    (Cert.ReferenceIdeal.RefValue.ref_run m' ρ')
  obtain ⟨hx, hy⟩ := Cert.Proof.Finite.real_of_pre m hpre c
  rw [(hagree c).1, (hagree c).2]
  exact congrArg (fun v => fun _ => v)
    (CstLoss.kern_eq_ref _ _ (fun n ch a b => hx _) (fun n ch a b => hy _)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefValue.ref_frame,
    trivial,
    algebraic⟩

end Cert.Proof

end
